-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2000x3 : Shape := ⟨2, ![2000, 3]⟩
abbrev S64x128 : Shape := ⟨2, ![64, 128]⟩
abbrev S128 : Shape := ⟨1, ![128]⟩
abbrev S128x128 : Shape := ⟨2, ![128, 128]⟩
abbrev S131x256 : Shape := ⟨2, ![131, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S600000 : Shape := ⟨1, ![600000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S2000x3 : S_.BroadcastsInDim S2000x3 (![] : Fin 0 → Fin S2000x3.rank)
  reducesTo_S2000x3_S_d0_1 : S2000x3.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S131x256 : S_.BroadcastsInDim S131x256 (![] : Fin 0 → Fin S131x256.rank)
  reducesTo_S131x256_S_d0_1 : S131x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x1 .f32) (main_arg13 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128 .f32) (main_arg8 : FVec F S131x256 .f32) (main_arg9 : FVec F S256 .f32) (main_arg10 : FVec F S256x256 .f32) (main_arg11 : FVec F S256 .f32) (main_arg12 : FVec F S256x1 .f32) (main_arg13 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S131x256 .f32 := Host.absf main_arg8
  let main_cst_14 : FVec F S_ .f32 := constant S_ .f32 0x7F800000#32
  let main_v40 : FVec F S131x256 .f32 := broadcastInDim S131x256 ![] bcast_S_S131x256 main_cst_14
  let main_v41 : IVec S131x256 1 := cmpf .olt main_v39 main_v40
  let main_c_15 : IVec S_ 1 := constantI S_ 1 1#1
  let main_v42 : IVec S_ 1 := (fun x v => Host.reduce IntOp.andi x v reducesTo_S131x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S131x256 .f32) (main_arg9 : FVec F S256 .f32) (main_arg10 : FVec F S256x256 .f32) (main_arg11 : FVec F S256 .f32) (main_arg12 : FVec F S256x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x64 .f32) (main_arg1 : FVec F S2000x3 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S131x256 .f32) (main_arg9 : FVec F S256 .f32) (main_arg10 : FVec F S256x256 .f32) (main_arg11 : FVec F S256 .f32) (main_arg12 : FVec F S256x1 .f32) (main_arg13 : FVec F S1 .f32) (main_arg14 : IVec S600000 32) (main_arg15 : IVec S600000 32) (main_arg16 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S2000x3 .f32 := Host.absf main_arg1
  let main_cst_0 : FVec F S_ .f32 := constant S_ .f32 0x7F800000#32
  let main_v5 : FVec F S2000x3 .f32 := broadcastInDim S2000x3 ![] bcast_S_S2000x3 main_cst_0
  let main_v6 : IVec S2000x3 1 := cmpf .olt main_v4 main_v5
  let main_c_1 : IVec S_ 1 := constantI S_ 1 1#1
  let main_v7 : IVec S_ 1 := (fun x v => Host.reduce IntOp.andi x v reducesTo_S2000x3_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x64 : Shape := ⟨2, ![50000, 64]⟩
abbrev S2000x3 : Shape := ⟨2, ![2000, 3]⟩
abbrev S64x128 : Shape := ⟨2, ![64, 128]⟩
abbrev S128 : Shape := ⟨1, ![128]⟩
abbrev S128x128 : Shape := ⟨2, ![128, 128]⟩
abbrev S131x256 : Shape := ⟨2, ![131, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S600000 : Shape := ⟨1, ![600000]⟩
abbrev S50000 : Shape := ⟨1, ![50000]⟩
abbrev S_ : Shape := ⟨0, ![]⟩
abbrev S600000x1 : Shape := ⟨2, ![600000, 1]⟩
abbrev S50000x1 : Shape := ⟨2, ![50000, 1]⟩
abbrev S50000x2 : Shape := ⟨2, ![50000, 2]⟩
abbrev S600000x64 : Shape := ⟨2, ![600000, 64]⟩
abbrev S1x128 : Shape := ⟨2, ![1, 128]⟩
abbrev S50000x128 : Shape := ⟨2, ![50000, 128]⟩
abbrev S5000x64 : Shape := ⟨2, ![5000, 64]⟩
abbrev S5000x2 : Shape := ⟨2, ![5000, 2]⟩
abbrev S5000x128 : Shape := ⟨2, ![5000, 128]⟩
abbrev S5000x1 : Shape := ⟨2, ![5000, 1]⟩
abbrev S600000x128 : Shape := ⟨2, ![600000, 128]⟩
abbrev S2000x128 : Shape := ⟨2, ![2000, 128]⟩
abbrev S2000 : Shape := ⟨1, ![2000]⟩
abbrev S2000x1 : Shape := ⟨2, ![2000, 1]⟩
abbrev S128x256 : Shape := ⟨2, ![128, 256]⟩
abbrev S3x256 : Shape := ⟨2, ![3, 256]⟩
abbrev S1x256 : Shape := ⟨2, ![1, 256]⟩
abbrev S1x1 : Shape := ⟨2, ![1, 1]⟩
abbrev S2000x256 : Shape := ⟨2, ![2000, 256]⟩

abbrev nBuf : Space → Nat
  | .hbm => 103
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S2000x3, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S131x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S600000, .i32⟩
  | .hbm, ⟨15, _⟩ => ⟨S600000, .i32⟩
  | .hbm, ⟨16, _⟩ => ⟨S50000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x2, .f32⟩
  | .hbm, ⟨38, _⟩ => ⟨S50000x64, .f32⟩
  | .hbm, ⟨39, _⟩ => ⟨S50000x64, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x64, .f32⟩
  | .hbm, ⟨49, _⟩ => ⟨S_, .f32⟩
  | .hbm, ⟨50, _⟩ => ⟨S50000x64, .f32⟩
  | .hbm, ⟨51, _⟩ => ⟨S600000x1, .i32⟩
  | .hbm, ⟨52, _⟩ => ⟨S50000x64, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .f32⟩
  | .hbm, ⟨64, _⟩ => ⟨S_, .f32⟩
  | .hbm, ⟨65, _⟩ => ⟨S50000x128, .f32⟩
  | .hbm, ⟨66, _⟩ => ⟨S600000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S600000, .i32⟩
  | .hbm, ⟨72, _⟩ => ⟨S600000, .i1⟩
  | .hbm, ⟨73, _⟩ => ⟨S_, .i32⟩
  | .hbm, ⟨74, _⟩ => ⟨S600000, .i32⟩
  | .hbm, ⟨75, _⟩ => ⟨S600000, .i32⟩
  | .hbm, ⟨76, _⟩ => ⟨S600000, .i32⟩
  | .hbm, ⟨77, _⟩ => ⟨S600000x1, .i32⟩
  | .hbm, ⟨78, _⟩ => ⟨S600000x128, .f32⟩
  | .hbm, ⟨79, _⟩ => ⟨S_, .f32⟩
  | .hbm, ⟨80, _⟩ => ⟨S50000x128, .f32⟩
  | .hbm, ⟨81, _⟩ => ⟨S600000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S2000x128, .f32⟩
  | .hbm, ⟨87, _⟩ => ⟨S50000x1, .i32⟩
  | .hbm, ⟨88, _⟩ => ⟨S2000x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S2000, .f32⟩
  | .hbm, ⟨93, _⟩ => ⟨S50000x1, .i32⟩
  | .hbm, ⟨94, _⟩ => ⟨S2000, .f32⟩
  | .hbm, ⟨95, _⟩ => ⟨S2000x1, .f32⟩
  | .hbm, ⟨96, _⟩ => ⟨S128x256, .f32⟩
  | .hbm, ⟨97, _⟩ => ⟨S3x256, .f32⟩
  | .hbm, ⟨98, _⟩ => ⟨S1x256, .f32⟩
  | .hbm, ⟨99, _⟩ => ⟨S1x256, .f32⟩
  | .hbm, ⟨100, _⟩ => ⟨S1x1, .f32⟩
  | .hbm, ⟨101, _⟩ => ⟨S2000x1, .f32⟩
  | .hbm, ⟨102, _⟩ => ⟨S2000, .f32⟩
  | .local _ .vmem, ⟨0, _⟩ => ⟨S5000x64, .f32⟩
  | .local _ .vmem, ⟨1, _⟩ => ⟨S5000x64, .f32⟩
  | .local _ .vmem, ⟨2, _⟩ => ⟨S5000x2, .f32⟩
  | .local _ .vmem, ⟨3, _⟩ => ⟨S5000x2, .f32⟩
  | .local _ .vmem, ⟨4, _⟩ => ⟨S64x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S2000x128, .f32⟩
  | .local _ .vmem, ⟨25, _⟩ => ⟨S2000x1, .f32⟩
  | .local _ .vmem, ⟨26, _⟩ => ⟨S2000x3, .f32⟩
  | .local _ .vmem, ⟨27, _⟩ => ⟨S128x256, .f32⟩
  | .local _ .vmem, ⟨28, _⟩ => ⟨S3x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S256x1, .f32⟩
  | .local _ .vmem, ⟨33, _⟩ => ⟨S1x1, .f32⟩
  | .local _ .vmem, ⟨34, _⟩ => ⟨S2000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2000x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S2000x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  slices_S131x256_S128x256_0_0 : S131x256.Slices ![0, 0] S128x256
  slices_S131x256_S3x256_128_0 : S131x256.Slices ![128, 0] S3x256
  shapeCasts_S256_S1x256 : S256.ShapeCasts S1x256
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x3_S2000x3_0_0 : ∀ a, (![0, 0] : Fin 2 → Nat) a + S2000x3.size a ≤ S2000x3.size a
  h_S2000x3 : 0 < S2000x3.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S2000x1_S2000 : S2000x1.ShapeCasts S2000
  scatter_S50000_S600000x1_S600000_n_0_0_1_wf : ScatterDims.WF S50000 S600000x1 S600000 [] [0] [0] 1
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x128_S5000x128_1_0_0_1_n_n_wf : DotDims.WF S5000x64 S64x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  dot_S2000x128_S128x256_S2000x256_1_0_0_1_n_n_wf : DotDims.WF S2000x128 S128x256 S2000x256 [1] [0] [0] [1] [] []
  dot_S2000x3_S3x256_S2000x256_1_0_0_1_n_n_wf : DotDims.WF S2000x3 S3x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S2000x128.size a
  hwx3_0 : ∀ i : grid3.Coords, EltTy.bits .f32 = 32 ∨ (Rect.block (s := S2000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S2000x1.size a
  hwx3_1 : ∀ i : grid3.Coords, EltTy.bits .f32 = 32 ∨ (Rect.block (s := S2000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2000x3.size a ≤ S2000x3.size a
  hwx3_2 : ∀ i : grid3.Coords, EltTy.bits .f32 = 32 ∨ (Rect.block (s := S2000x3) S2000x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x256.size a ≤ S3x256.size a
  hwx3_4 : ∀ i : grid3.Coords, EltTy.bits .f32 = 32 ∨ (Rect.block (s := S3x256) S3x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x1.size a ≤ S256x1.size a
  hwx3_8 : ∀ i : grid3.Coords, EltTy.bits .f32 = 32 ∨ (Rect.block (s := S256x1) S256x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S2000x1.size a ≤ S2000x1.size a
  hwx3_10 : ∀ i : grid3.Coords, EltTy.bits .f32 = 32 ∨ (Rect.block (s := S2000x1) S2000x1.size (cc3_transform_10 i) (hinb3_10 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x3_S3x256_S2000x256_1_0_0_1_n_n : DotDims S2000x3 S3x256 S2000x256 where
  lhsContracting := [1]
  rhsContracting := [0]
  lhsNonContracting := [0]
  rhsNonContracting := [1]
  lhsBatch := []
  rhsBatch := []
  wf := dot_S2000x3_S3x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S2000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S2000x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S3x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg12) S256x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v66) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v67) S2000x1.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x64 : Shape := ⟨2, ![50000, 64]⟩
abbrev S2000x3 : Shape := ⟨2, ![2000, 3]⟩
abbrev S64x128 : Shape := ⟨2, ![64, 128]⟩
abbrev S128 : Shape := ⟨1, ![128]⟩
abbrev S128x128 : Shape := ⟨2, ![128, 128]⟩
abbrev S131x256 : Shape := ⟨2, ![131, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S600000 : Shape := ⟨1, ![600000]⟩
abbrev S50000 : Shape := ⟨1, ![50000]⟩
abbrev S_ : Shape := ⟨0, ![]⟩
abbrev S600000x1 : Shape := ⟨2, ![600000, 1]⟩
abbrev S50000x1 : Shape := ⟨2, ![50000, 1]⟩
abbrev S600000x64 : Shape := ⟨2, ![600000, 64]⟩
abbrev S50000x128 : Shape := ⟨2, ![50000, 128]⟩
abbrev S1x128 : Shape := ⟨2, ![1, 128]⟩
abbrev S600000x128 : Shape := ⟨2, ![600000, 128]⟩
abbrev S2000x128 : Shape := ⟨2, ![2000, 128]⟩
abbrev S2000 : Shape := ⟨1, ![2000]⟩
abbrev S2000x1 : Shape := ⟨2, ![2000, 1]⟩
abbrev S2000x131 : Shape := ⟨2, ![2000, 131]⟩
abbrev S2000x256 : Shape := ⟨2, ![2000, 256]⟩
abbrev S1x256 : Shape := ⟨2, ![1, 256]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x64, .f32⟩
  | 1 => ⟨S2000x3, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S131x256, .f32⟩
  | 9 => ⟨S256, .f32⟩
  | 10 => ⟨S256x256, .f32⟩
  | 11 => ⟨S256, .f32⟩
  | 12 => ⟨S256x1, .f32⟩
  | 13 => ⟨S1, .f32⟩
  | 14 => ⟨S600000, .i32⟩
  | 15 => ⟨S600000, .i32⟩
  | 16 => ⟨S50000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S50000x1, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000x64, .f32⟩
  | 38 => ⟨S50000x64, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x64, .f32⟩
  | 48 => ⟨S_, .f32⟩
  | 49 => ⟨S50000x64, .f32⟩
  | 50 => ⟨S600000x1, .i32⟩
  | 51 => ⟨S50000x64, .f32⟩
  | 52 => ⟨S50000x64, .f32⟩
  | 53 => ⟨S50000x64, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S2000x128, .f32⟩
  | 108 => ⟨S50000x1, .i32⟩
  | 109 => ⟨S2000x128, .f32⟩
  | 110 => ⟨S_, .f32⟩
  | 111 => ⟨S50000, .f32⟩
  | 112 => ⟨S_, .f32⟩
  | 113 => ⟨S2000, .f32⟩
  | 114 => ⟨S50000x1, .i32⟩
  | 115 => ⟨S2000, .f32⟩
  | 116 => ⟨S_, .f32⟩
  | 117 => ⟨S2000, .f32⟩
  | 118 => ⟨S2000, .f32⟩
  | 119 => ⟨S2000x1, .f32⟩
  | 120 => ⟨S2000x128, .f32⟩
  | 121 => ⟨S2000x128, .f32⟩
  | 122 => ⟨S2000x131, .f32⟩
  | 123 => ⟨S2000x256, .f32⟩
  | 124 => ⟨S1x256, .f32⟩
  | 125 => ⟨S2000x256, .f32⟩
  | 126 => ⟨S2000x256, .f32⟩
  | 127 => ⟨S_, .f32⟩
  | _ => ⟨S50000x64, .f32⟩

abbrev hbmTy0_1 (i : Nat) : BufTy := match i % 128 with
  | 0 => ⟨S2000x256, .f32⟩
  | 1 => ⟨S2000x256, .f32⟩
  | 2 => ⟨S2000x256, .f32⟩
  | 3 => ⟨S1x256, .f32⟩
  | 4 => ⟨S2000x256, .f32⟩
  | 5 => ⟨S2000x256, .f32⟩
  | 6 => ⟨S_, .f32⟩
  | 7 => ⟨S2000x256, .f32⟩
  | 8 => ⟨S2000x256, .f32⟩
  | 9 => ⟨S2000x1, .f32⟩
  | 10 => ⟨S1x1, .f32⟩
  | 11 => ⟨S2000x1, .f32⟩
  | 12 => ⟨S2000x1, .f32⟩
  | 13 => ⟨S2000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_cst : Ref sig .tc := ⟨.hbm, 82, rfl⟩
abbrev main_call1_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call2_cst : Ref sig .tc := ⟨.hbm, 127, rfl⟩
abbrev main_call2_v0 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call3_cst : Ref sig .tc := ⟨.hbm, 134, rfl⟩
abbrev main_call3_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S2000x128 : S_.BroadcastsInDim S2000x128 (![] : Fin 0 → Fin S2000x128.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  concatenates_S2000x128_S2000x3_S2000x131_d1 : Shape.Concatenates [S2000x128, S2000x3] S2000x131 1
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  bcast_S_S2000x256 : S_.BroadcastsInDim S2000x256 (![] : Fin 0 → Fin S2000x256.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  shapeCasts_S2000x1_S2000 : S2000x1.ShapeCasts S2000
  scatter_S50000_S600000x1_S600000_n_0_0_1_wf : ScatterDims.WF S50000 S600000x1 S600000 [] [0] [0] 1
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x128_S50000x128_1_0_0_1_n_n_wf : DotDims.WF S50000x64 S64x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  dot_S2000x131_S131x256_S2000x256_1_0_0_1_n_n_wf : DotDims.WF S2000x131 S131x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x131_S131x256_S2000x256_1_0_0_1_n_n : DotDims S2000x131 S131x256 S2000x256 where
  lhsContracting := [1]
  rhsContracting := [0]
  lhsNonContracting := [0]
  rhsNonContracting := [1]
  lhsBatch := []
  rhsBatch := []
  wf := dot_S2000x131_S131x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

class Facts : Prop extends Facts₀ where

variable [Facts]
-- ==== Proof.KernelRun.lean ====
/-
  The idealized kernel program's run with its result kept.

  The program is five stretches of host operations around four kernel regions.  Its generated frame certificate
  follows every unscoped buffer through the nine segments: the contents at the last boundary are the fold `W9` of
  the host stretches and of the regions' write-backs over the launch memory.  The frame statement keeps only the
  argument arrays out of that last state.  Here the same run is stated once more keeping also the result buffer:
  when the program has ended, the result holds what the last boundary's contents assign to it, and every argument
  array is as launched.
-/
import proofs.«156721_j41420664602929_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last
    boundary's contents and every argument array unchanged. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core is given any further ghost resource
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      -- each segment is entered from the state the one before leaves; the last leaves the buffers, the generator
      -- register and the core owing nothing
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every core holds its unscoped buffers at the launch memory, its generator register, and owes nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      -- the buffers held at the end are read against the final memory
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)

end Cert.KernelIdeal.RunValue

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.DensePay0.lean ====
/-
  The first graph-convolution layer's kernel body, read at one entry.

  The body takes a block of 5000 rows of the aggregated features `a` (64 columns), the same rows of the two
  normalisation columns `s` (column 0 the out-degree factor, column 1 the in-degree factor), the whole weight matrix
  `w` (64 × 128) and the bias row `b` (1 × 128), and stores, at row p and column q,
      max( Σ_{k < 64} (a(p,k) · s(p,1)) · w(k,q) + b(0,q), 0 ) · s(p,0).
  At the ideal values the two roundings to bf16 are the identity and the matrix unit's product into the zero
  accumulator is the plain sum.
-/
import proofs.«156721_j41420664602929_2_alg».proof.Proof.Gen.KernelIdeal.Skeleton
import proofs.«156721_j41420664602929_2_alg».proof.Proof.LibMatmulZero
import proofs.«156721_j41420664602929_2_alg».proof.Proof.LibRowOps
import Idealize.ShloMosaic.Lib.ValueLayout
import Idealize.ShloMosaic.Lib.Pipeline.Value

noncomputable section

namespace Cert.KernelIdeal.DensePay

open Cert.KernelIdeal Cert.KernelIdeal.Gen Idealize.ShloMosaic Idealize.ShloMosaic.ValueIdx

/-- The matrix unit's product of a 5000 × 64 block by the 64 × 128 weights into the zero accumulator is the sum over
    the 64 contracted positions. -/
theorem matmul64 (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) :=
  Cert.LibMatmulZero.matmul_zero_ix2 dot_S5000x64_S64x128_S5000x128_1_0_0_1_n_n rfl rfl rfl rfl
    (fun i c => by
      unfold DotDims.lhsIdx
      rw [dif_neg (show ¬(0 : Fin _) ∈ dot_S5000x64_S64x128_S5000x128_1_0_0_1_n_n.lhsBatch by decide),
        dif_pos (show (0 : Fin _) ∈ dot_S5000x64_S64x128_S5000x128_1_0_0_1_n_n.lhsNonContracting by decide)]
      rfl)
    (fun i c => by
      unfold DotDims.rhsIdx
      rw [dif_neg (show ¬(1 : Fin _) ∈ dot_S5000x64_S64x128_S5000x128_1_0_0_1_n_n.rhsBatch by decide),
        dif_pos (show (1 : Fin _) ∈ dot_S5000x64_S64x128_S5000x128_1_0_0_1_n_n.rhsNonContracting by decide)]
      rfl)
    none l r p q

/-- The first layer's stored value at row p, column q. -/
theorem k0_pay1_apply (a : Vec Ideal S5000x64 .f32) (s : Vec Ideal S5000x2 .f32) (w : Vec Ideal S64x128 .f32)
    (b : Vec Ideal S1x128 .f32) (p : Fin 5000) (q : Fin 128) :
    k0_pay1 (F := Ideal) a s w b (ix2 p q)
      = max ((∑ k : Fin 64, (a (ix2 p k) * s (ix2 p (1 : Fin 2))) * w (ix2 k q)) + b (ix2 (0 : Fin 1) q))
          (Ideal.ofBits .f32 0x00000000#32) * s (ix2 p (0 : Fin 2)) := by
  unfold k0_pay1
  simp only [shapeCast_self]
  rw [mulf_apply, maximumf_apply, addf_apply, broadcast_apply, matmul64]
  rw [Cert.LibRowOps.broadcastTo_a1_ab_apply, broadcastTo_1b_ab_apply]
  rw [slice2_axis1_apply 0 _ _ p (0 : Fin 1) (0 : Fin 2) rfl]
  refine congrArg (fun z => max (z + b (ix2 (0 : Fin 1) q)) (Ideal.ofBits .f32 0x00000000#32) * s (ix2 p (0 : Fin 2))) ?_
  refine Finset.sum_congr rfl fun k _ => ?_
  rw [truncf_apply, truncf_apply, mulf_apply, Cert.LibRowOps.broadcastTo_a1_ab_apply,
    slice2_axis1_apply 1 _ _ p (0 : Fin 1) (1 : Fin 2) rfl]

end Cert.KernelIdeal.DensePay

end
-- ==== Proof.Spec.lean ====
/-
  The layers of the network as functions of whole arrays, entry by entry, on the extended reals.

  A graph-convolution layer's dense part takes the aggregated features `a` (N × K), per-row factors, weights `w`
  (K × J) and a bias, and gives at row n, column j
      Σ_{k < K} (a(n,k) · c_in(n)) · w(k,j) + b(j),
  for the first two layers clamped below at zero and multiplied by c_out(n).  The two spellings below differ only in
  how the factors and the bias arrive: `dense` / `denseLast` take them as the kernels do (the two factors as the
  columns of one N × 2 array, or the in-degree factor as an N × 1 column; the bias as a 1 × J row).

  The read-out head takes per-graph feature sums `sy` (G × 128), per-graph node counts `cnt` (G × 1) and graph
  features `fg` (G × 3):
      mean(g,k) = sy(g,k) / max(cnt(g,0), 1),
      h1(g,j)   = max( Σ_{k<128} mean(g,k)·wa(k,j) + Σ_{k<3} fg(g,k)·wb(k,j) + b1(0,j), 0 ),
      h2(g,j)   = max( Σ_{k<256} h1(g,k)·w2(k,j) + b2(0,j), 0 ),
      out(g,0)  = Σ_{k<256} h2(g,k)·w3(k,0) + b3(0,0).
  The words 0x00000000 and 0x3F800000 are the floats 0 and 1; they are kept as words, the same on both sides.
-/
import Idealize.ShloMosaic.PureOps.Ideal
import Idealize.ShloMosaic.Lib.ValueIdx

noncomputable section

namespace Cert.Spec

open Idealize.ShloMosaic Idealize.ShloMosaic.ValueIdx

/-- An R × C array of extended reals. -/
abbrev Mat (R C : Nat) : Type := FVec Ideal ⟨2, ![R, C]⟩ .f32

/-- The float word 0. -/
abbrev w0 : Ideal .f32 := Ideal.ofBits .f32 0x00000000#32
/-- The float word 1. -/
abbrev w1 : Ideal .f32 := Ideal.ofBits .f32 0x3F800000#32

/-- One entry of a hidden graph-convolution layer: row `n`, column `j`; `s` holds the out-degree factor in column 0
    and the in-degree factor in column 1. -/
def denseAt {N K J : Nat} (a : Mat N K) (s : Mat N 2) (w : Mat K J) (b : Mat 1 J) (n : Fin N) (j : Fin J) : Ideal .f32 :=
  max ((∑ k : Fin K, (a (ix2 n k) * s (ix2 n (1 : Fin 2))) * w (ix2 k j)) + b (ix2 (0 : Fin 1) j)) w0 * s (ix2 n (0 : Fin 2))

/-- A hidden graph-convolution layer's dense part, as a whole array. -/
def dense {N K J : Nat} (a : Mat N K) (s : Mat N 2) (w : Mat K J) (b : Mat 1 J) : Mat N J :=
  fun i => denseAt a s w b (i 0) (i 1)

/-- One entry of the last graph-convolution layer: no clamp, no out-degree factor. -/
def denseLastAt {N K J : Nat} (a : Mat N K) (ci : Mat N 1) (w : Mat K J) (b : Mat 1 J) (n : Fin N) (j : Fin J) : Ideal .f32 :=
  (∑ k : Fin K, (a (ix2 n k) * ci (ix2 n (0 : Fin 1))) * w (ix2 k j)) + b (ix2 (0 : Fin 1) j)

/-- The last graph-convolution layer's dense part, as a whole array. -/
def denseLast {N K J : Nat} (a : Mat N K) (ci : Mat N 1) (w : Mat K J) (b : Mat 1 J) : Mat N J :=
  fun i => denseLastAt a ci w b (i 0) (i 1)

/-- The first hidden row of the read-out head at graph `g`, column `j`. -/
def head1At {G : Nat} (sy : Mat G 128) (cnt : Mat G 1) (fg : Mat G 3) (wa : Mat 128 256) (wb : Mat 3 256) (b1 : Mat 1 256)
    (g : Fin G) (j : Fin 256) : Ideal .f32 :=
  max (((∑ k : Fin 128, Ideal.div (sy (ix2 g k)) (max (cnt (ix2 g (0 : Fin 1))) w1) * wa (ix2 k j))
        + ∑ k : Fin 3, fg (ix2 g k) * wb (ix2 k j)) + b1 (ix2 (0 : Fin 1) j)) w0

/-- The second hidden row of the read-out head at graph `g`, column `j`, from the first hidden rows `h`. -/
def head2At {G : Nat} (h : Fin G → Fin 256 → Ideal .f32) (w2 : Mat 256 256) (b2 : Mat 1 256) (g : Fin G) (j : Fin 256) : Ideal .f32 :=
  max ((∑ k : Fin 256, h g k * w2 (ix2 k j)) + b2 (ix2 (0 : Fin 1) j)) w0

/-- The head's output at graph `g`, from the second hidden rows `h`. -/
def head3At {G : Nat} (h : Fin G → Fin 256 → Ideal .f32) (w3 : Mat 256 1) (b3 : Mat 1 1) (g : Fin G) : Ideal .f32 :=
  (∑ k : Fin 256, h g k * w3 (ix2 k (0 : Fin 1))) + b3 (ix2 (0 : Fin 1) (0 : Fin 1))

/-- The whole read-out head, as a G × 1 array. -/
def head {G : Nat} (sy : Mat G 128) (cnt : Mat G 1) (fg : Mat G 3) (wa : Mat 128 256) (wb : Mat 3 256) (b1 : Mat 1 256)
    (w2 : Mat 256 256) (b2 : Mat 1 256) (w3 : Mat 256 1) (b3 : Mat 1 1) : Mat G 1 :=
  fun i => head3At (head2At (head1At sy cnt fg wa wb b1) w2 b2) w3 b3 (i 0)

end Cert.Spec

end
-- ==== Proof.Region0.lean ====
/-
  The first graph-convolution layer's region: its output array, as one function of the arrays it reads.

  The region runs over ten grid points.  Point t reads rows 5000·t … 5000·t + 4999 of the aggregated features
  and of the two normalisation columns, the whole weight matrix and the whole bias row, and writes back rows
  5000·t … 5000·t + 4999 of the output.  Row p of what it writes depends only on row p of what it reads, so the
  block written at point t is block t of the whole-array function `Spec.dense`; the ten blocks tile the 50000 rows,
  so the array ends holding that function.
-/
import proofs.«156721_j41420664602929_2_alg».proof.Proof.Gen.KernelIdeal.Frame
import proofs.«156721_j41420664602929_2_alg».proof.Proof.DensePay0
import proofs.«156721_j41420664602929_2_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem off0 : (![0, 0] : Fin 2 → Nat) = fun _ => 0 := funext fun a => by fin_cases a <;> rfl

/-- The block index maps, decided over the ten points: the row-blocked windows move with the point, everything else
    stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The whole-array function the region leaves in its output. -/
abbrev G (c : Dev nD) : S50000x128.Idx → Elt Ideal .f32 :=
  Spec.dense (V c main_v27) (V c main_v15) (V c main_arg2) (V c main_v28)

/-- Row p of point t's block is row 5000·t + p of the array. -/
def row (t : Fin cfg0.N) (p : Fin 5000) : Fin 50000 :=
  ⟨t.val * 5000 + p.val, by have ht : t.val < 10 := N_0 ▸ t.isLt; have := p.isLt; omega⟩

theorem read0 (c : Dev nD) (t : Fin cfg0.N) (p : Fin 5000) (k : Fin 64) :
    iblk0 V c 0 t (ix2 p k) = V c main_v27 (ix2 (row t p) k) := by
  obtain ⟨e00, e01, -⟩ := idx_facts t
  show V c main_v27 (((cfg0.win 0).blk t).view.emb (ix2 p k)) = V c main_v27 (ix2 (row t p) k)
  refine congrArg (V c main_v27) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem read1 (c : Dev nD) (t : Fin cfg0.N) (p : Fin 5000) (k : Fin 2) :
    iblk0 V c 1 t (ix2 p k) = V c main_v15 (ix2 (row t p) k) := by
  obtain ⟨-, -, e10, e11, -⟩ := idx_facts t
  show V c main_v15 (((cfg0.win 1).blk t).view.emb (ix2 p k)) = V c main_v15 (ix2 (row t p) k)
  refine congrArg (V c main_v15) (funext fun a => Fin.ext ?_)
  match a with
  | ⟨0, _⟩ => show win0_1.index t (0 : Fin 2) * 5000 + 1 * p.val = t.val * 5000 + p.val; omega
  | ⟨1, _⟩ => show win0_1.index t (1 : Fin 2) * 2 + 1 * k.val = k.val; omega

theorem read2 (c : Dev nD) (t : Fin cfg0.N) (k : Fin 64) (q : Fin 128) :
    iblk0 V c 2 t (ix2 k q) = V c main_arg2 (ix2 k q) := by
  obtain ⟨-, -, -, -, e20, e21, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

theorem read3 (c : Dev nD) (t : Fin cfg0.N) (u : Fin 1) (q : Fin 128) :
    iblk0 V c 3 t (ix2 u q) = V c main_v28 (ix2 u q) := by
  obtain ⟨-, -, -, -, -, -, e30, e31, -⟩ := idx_facts t
  show V c main_v28 (((cfg0.win 3).blk t).view.emb (ix2 u q)) = V c main_v28 (ix2 u q)
  refine congrArg (V c main_v28) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

/-- What point t writes back is block t of the whole-array function. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero off0]
  simp only [View.ld_unit_zero (S := S5000x64) off0, View.ld_unit_zero (S := S5000x2) off0,
    View.ld_unit_zero (S := S64x128) off0, View.ld_unit_zero (S := S1x128) off0]
  funext j
  obtain ⟨p, q, rfl⟩ : ∃ (p : Fin 5000) (q : Fin 128), j = ix2 p q := ⟨j 0, j 1, eq_ix2 j⟩
  refine (DensePay.k0_pay1_apply (iblk0 V c 0 t) (iblk0 V c 1 t) (iblk0 V c 2 t) (iblk0 V c 3 t) p q).trans ?_
  have e4 : ((cfg0.win 4).blk t).view.emb (ix2 p q) = ix2 (row t p) q := by
    obtain ⟨-, -, -, -, -, -, -, -, e40, e41⟩ := idx_facts t
    refine funext fun a => Fin.ext ?_
    match a with
    | ⟨0, _⟩ => show win0_4.index t (0 : Fin 2) * 5000 + 1 * p.val = t.val * 5000 + p.val; omega
    | ⟨1, _⟩ => show win0_4.index t (1 : Fin 2) * 128 + 1 * q.val = q.val; omega
  show _ = G V c (((cfg0.win 4).blk t).view.emb (ix2 p q))
  rw [e4]
  show _ = Spec.denseAt (V c main_v27) (V c main_v15) (V c main_arg2) (V c main_v28) (row t p) q
  unfold Spec.denseAt
  rw [read1 V c t p (1 : Fin 2), read1 V c t p (0 : Fin 2), read3 V c t (0 : Fin 1) q]
  refine congrArg (fun z => max (z + V c main_v28 (ix2 (0 : Fin 1) q)) Spec.w0 * V c main_v15 (ix2 (row t p) (0 : Fin 2))) ?_
  refine Finset.sum_congr rfl fun k _ => ?_
  rw [read0 V c t p k, read2 V c t k q]

/-- An index is in point t's block iff its row lies in the block's range. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v29).slice (win0_4.rect t)).set ↔ _
  rw [View.set_slice_whole, Rect.mem_set_unit]
  exact Iff.rfl

/-- Every entry of the output is in the block of the point its row falls in. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, e40, e41⟩ := idx_facts t
  have ht : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region. -/
theorem final (c : Dev nD) : (dat0 V c).arrAt 4 cfg0.N = G V c :=
  (dat0 V c).arrAt_eq_of_cover 4 (G V c) (fun t _ => flushed_eq V c t) cover

end Cert.KernelIdeal.Region0

end
-- ==== Proof.DensePay12.lean ====
/-
  The second and third graph-convolution layers' kernel bodies, read at one entry.

  Both take a block of 5000 rows of the aggregated features `a` (128 columns), the whole weight matrix `w`
  (128 × 128) and the bias row `b` (1 × 128).  The second layer also takes the same rows of the two normalisation
  columns `s` (column 0 the out-degree factor, column 1 the in-degree factor) and stores, at row p and column q,
      max( Σ_{k < 128} (a(p,k) · s(p,1)) · w(k,q) + b(0,q), 0 ) · s(p,0);
  the third takes the in-degree factor alone as a column `ci` and stores
      Σ_{k < 128} (a(p,k) · ci(p,0)) · w(k,q) + b(0,q).
  At the ideal values the roundings to bf16 are the identity and the matrix unit's product into the zero accumulator
  is the plain sum.
-/
import proofs.«156721_j41420664602929_2_alg».proof.Proof.Gen.KernelIdeal.Skeleton
import proofs.«156721_j41420664602929_2_alg».proof.Proof.LibMatmulZero
import proofs.«156721_j41420664602929_2_alg».proof.Proof.LibRowOps
import Idealize.ShloMosaic.Lib.ValueLayout
import Idealize.ShloMosaic.Lib.Pipeline.Value

noncomputable section

namespace Cert.KernelIdeal.DensePay

open Cert.KernelIdeal Cert.KernelIdeal.Gen Idealize.ShloMosaic Idealize.ShloMosaic.ValueIdx

/-- The matrix unit's product of a 5000 × 128 block by the 128 × 128 weights into the zero accumulator is the sum
    over the 128 contracted positions. -/
theorem matmul128 (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibMatmulZero.matmul_zero_ix2 dot_S5000x128_S128x128_S5000x128_1_0_0_1_n_n rfl rfl rfl rfl
    (fun i c => by
      unfold DotDims.lhsIdx
      rw [dif_neg (show ¬(0 : Fin _) ∈ dot_S5000x128_S128x128_S5000x128_1_0_0_1_n_n.lhsBatch by decide),
        dif_pos (show (0 : Fin _) ∈ dot_S5000x128_S128x128_S5000x128_1_0_0_1_n_n.lhsNonContracting by decide)]
      rfl)
    (fun i c => by
      unfold DotDims.rhsIdx
      rw [dif_neg (show ¬(1 : Fin _) ∈ dot_S5000x128_S128x128_S5000x128_1_0_0_1_n_n.rhsBatch by decide),
        dif_pos (show (1 : Fin _) ∈ dot_S5000x128_S128x128_S5000x128_1_0_0_1_n_n.rhsNonContracting by decide)]
      rfl)
    none l r p q

/-- The second layer's stored value at row p, column q. -/
theorem k1_pay1_apply (a : Vec Ideal S5000x128 .f32) (s : Vec Ideal S5000x2 .f32) (w : Vec Ideal S128x128 .f32)
    (b : Vec Ideal S1x128 .f32) (p : Fin 5000) (q : Fin 128) :
    k1_pay1 (F := Ideal) a s w b (ix2 p q)
      = max ((∑ k : Fin 128, (a (ix2 p k) * s (ix2 p (1 : Fin 2))) * w (ix2 k q)) + b (ix2 (0 : Fin 1) q))
          (Ideal.ofBits .f32 0x00000000#32) * s (ix2 p (0 : Fin 2)) := by
  unfold k1_pay1
  simp only [shapeCast_self]
  rw [mulf_apply, maximumf_apply, addf_apply, broadcast_apply, matmul128]
  rw [Cert.LibRowOps.broadcastTo_a1_ab_apply, broadcastTo_1b_ab_apply]
  rw [slice2_axis1_apply 0 _ _ p (0 : Fin 1) (0 : Fin 2) rfl]
  refine congrArg (fun z => max (z + b (ix2 (0 : Fin 1) q)) (Ideal.ofBits .f32 0x00000000#32) * s (ix2 p (0 : Fin 2))) ?_
  refine Finset.sum_congr rfl fun k _ => ?_
  rw [truncf_apply, truncf_apply, mulf_apply, Cert.LibRowOps.broadcastTo_a1_ab_apply,
    slice2_axis1_apply 1 _ _ p (0 : Fin 1) (1 : Fin 2) rfl]

/-- The third layer's stored value at row p, column q. -/
theorem k2_pay1_apply (a : Vec Ideal S5000x128 .f32) (ci : Vec Ideal S5000x1 .f32) (w : Vec Ideal S128x128 .f32)
    (b : Vec Ideal S1x128 .f32) (p : Fin 5000) (q : Fin 128) :
    k2_pay1 (F := Ideal) a ci w b (ix2 p q)
      = (∑ k : Fin 128, (a (ix2 p k) * ci (ix2 p (0 : Fin 1))) * w (ix2 k q)) + b (ix2 (0 : Fin 1) q) := by
  unfold k2_pay1
  simp only [shapeCast_self]
  rw [addf_apply, matmul128, broadcastTo_1b_ab_apply]
  refine congrArg (fun z => z + b (ix2 (0 : Fin 1) q)) ?_
  refine Finset.sum_congr rfl fun k _ => ?_
  rw [truncf_apply, truncf_apply, mulf_apply, Cert.LibRowOps.broadcastTo_a1_ab_apply]

end Cert.KernelIdeal.DensePay

end
-- ==== Proof.Region1.lean ====
/-
  The second graph-convolution layer's region: its output array, as one function of the arrays it reads.

  The region runs over ten grid points.  Point t reads rows 5000·t … 5000·t + 4999 of the aggregated features
  and of the two normalisation columns, the whole weight matrix and the whole bias row, and writes back rows
  5000·t … 5000·t + 4999 of the output.  Row p of what it writes depends only on row p of what it reads, so the
  block written at point t is block t of the whole-array function `Spec.dense`; the ten blocks tile the 50000 rows,
  so the array ends holding that function.
-/
import proofs.«156721_j41420664602929_2_alg».proof.Proof.Gen.KernelIdeal.Frame
import proofs.«156721_j41420664602929_2_alg».proof.Proof.DensePay12
import proofs.«156721_j41420664602929_2_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem off0 : (![0, 0] : Fin 2 → Nat) = fun _ => 0 := funext fun a => by fin_cases a <;> rfl

/-- The block index maps, decided over the ten points: the row-blocked windows move with the point, everything else
    stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The whole-array function the region leaves in its output. -/
abbrev G (c : Dev nD) : S50000x128.Idx → Elt Ideal .f32 :=
  Spec.dense (V c main_v39) (V c main_v15) (V c main_arg4) (V c main_v40)

/-- Row p of point t's block is row 5000·t + p of the array. -/
def row (t : Fin cfg1.N) (p : Fin 5000) : Fin 50000 :=
  ⟨t.val * 5000 + p.val, by have ht : t.val < 10 := N_1 ▸ t.isLt; have := p.isLt; omega⟩

theorem read0 (c : Dev nD) (t : Fin cfg1.N) (p : Fin 5000) (k : Fin 128) :
    iblk1 V c 0 t (ix2 p k) = V c main_v39 (ix2 (row t p) k) := by
  obtain ⟨e00, e01, -⟩ := idx_facts t
  show V c main_v39 (((cfg1.win 0).blk t).view.emb (ix2 p k)) = V c main_v39 (ix2 (row t p) k)
  refine congrArg (V c main_v39) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) (k : Fin 2) :
    iblk1 V c 1 t (ix2 p k) = V c main_v15 (ix2 (row t p) k) := by
  obtain ⟨-, -, e10, e11, -⟩ := idx_facts t
  show V c main_v15 (((cfg1.win 1).blk t).view.emb (ix2 p k)) = V c main_v15 (ix2 (row t p) k)
  refine congrArg (V c main_v15) (funext fun a => Fin.ext ?_)
  match a with
  | ⟨0, _⟩ => show win1_1.index t (0 : Fin 2) * 5000 + 1 * p.val = t.val * 5000 + p.val; omega
  | ⟨1, _⟩ => show win1_1.index t (1 : Fin 2) * 2 + 1 * k.val = k.val; omega

theorem read2 (c : Dev nD) (t : Fin cfg1.N) (k : Fin 128) (q : Fin 128) :
    iblk1 V c 2 t (ix2 k q) = V c main_arg4 (ix2 k q) := by
  obtain ⟨-, -, -, -, e20, e21, -⟩ := idx_facts t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read3 (c : Dev nD) (t : Fin cfg1.N) (u : Fin 1) (q : Fin 128) :
    iblk1 V c 3 t (ix2 u q) = V c main_v40 (ix2 u q) := by
  obtain ⟨-, -, -, -, -, -, e30, e31, -⟩ := idx_facts t
  show V c main_v40 (((cfg1.win 3).blk t).view.emb (ix2 u q)) = V c main_v40 (ix2 u q)
  refine congrArg (V c main_v40) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-- What point t writes back is block t of the whole-array function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero off0]
  simp only [View.ld_unit_zero (S := S5000x128) off0, View.ld_unit_zero (S := S5000x2) off0,
    View.ld_unit_zero (S := S128x128) off0, View.ld_unit_zero (S := S1x128) off0]
  funext j
  obtain ⟨p, q, rfl⟩ : ∃ (p : Fin 5000) (q : Fin 128), j = ix2 p q := ⟨j 0, j 1, eq_ix2 j⟩
  refine (DensePay.k1_pay1_apply (iblk1 V c 0 t) (iblk1 V c 1 t) (iblk1 V c 2 t) (iblk1 V c 3 t) p q).trans ?_
  have e4 : ((cfg1.win 4).blk t).view.emb (ix2 p q) = ix2 (row t p) q := by
    obtain ⟨-, -, -, -, -, -, -, -, e40, e41⟩ := idx_facts t
    refine funext fun a => Fin.ext ?_
    match a with
    | ⟨0, _⟩ => show win1_4.index t (0 : Fin 2) * 5000 + 1 * p.val = t.val * 5000 + p.val; omega
    | ⟨1, _⟩ => show win1_4.index t (1 : Fin 2) * 128 + 1 * q.val = q.val; omega
  show _ = G V c (((cfg1.win 4).blk t).view.emb (ix2 p q))
  rw [e4]
  show _ = Spec.denseAt (V c main_v39) (V c main_v15) (V c main_arg4) (V c main_v40) (row t p) q
  unfold Spec.denseAt
  rw [read1 V c t p (1 : Fin 2), read1 V c t p (0 : Fin 2), read3 V c t (0 : Fin 1) q]
  refine congrArg (fun z => max (z + V c main_v40 (ix2 (0 : Fin 1) q)) Spec.w0 * V c main_v15 (ix2 (row t p) (0 : Fin 2))) ?_
  refine Finset.sum_congr rfl fun k _ => ?_
  rw [read0 V c t p k, read2 V c t k q]

/-- An index is in point t's block iff its row lies in the block's range. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v41).slice (win1_4.rect t)).set ↔ _
  rw [View.set_slice_whole, Rect.mem_set_unit]
  exact Iff.rfl

/-- Every entry of the output is in the block of the point its row falls in. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, e40, e41⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region. -/
theorem final (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  The last graph-convolution layer's region: its output array, as one function of the arrays it reads.

  The region runs over ten grid points.  Point t reads rows 5000·t … 5000·t + 4999 of the aggregated features
  and of the in-degree factor column, the whole weight matrix and the whole bias row, and writes back rows
  5000·t … 5000·t + 4999 of the output.  Row p of what it writes depends only on row p of what it reads, so the
  block written at point t is block t of the whole-array function `Spec.denseLast`; the ten blocks tile the 50000 rows,
  so the array ends holding that function.
-/
import proofs.«156721_j41420664602929_2_alg».proof.Proof.Gen.KernelIdeal.Frame
import proofs.«156721_j41420664602929_2_alg».proof.Proof.DensePay12
import proofs.«156721_j41420664602929_2_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem off0 : (![0, 0] : Fin 2 → Nat) = fun _ => 0 := funext fun a => by fin_cases a <;> rfl

/-- The block index maps, decided over the ten points: the row-blocked windows move with the point, everything else
    stays at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The whole-array function the region leaves in its output. -/
abbrev G (c : Dev nD) : S50000x128.Idx → Elt Ideal .f32 :=
  Spec.denseLast (V c main_v51) (V c main_v14) (V c main_arg6) (V c main_v52)

/-- Row p of point t's block is row 5000·t + p of the array. -/
def row (t : Fin cfg2.N) (p : Fin 5000) : Fin 50000 :=
  ⟨t.val * 5000 + p.val, by have ht : t.val < 10 := N_2 ▸ t.isLt; have := p.isLt; omega⟩

theorem read0 (c : Dev nD) (t : Fin cfg2.N) (p : Fin 5000) (k : Fin 128) :
    iblk2 V c 0 t (ix2 p k) = V c main_v51 (ix2 (row t p) k) := by
  obtain ⟨e00, e01, -⟩ := idx_facts t
  show V c main_v51 (((cfg2.win 0).blk t).view.emb (ix2 p k)) = V c main_v51 (ix2 (row t p) k)
  refine congrArg (V c main_v51) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

theorem read1 (c : Dev nD) (t : Fin cfg2.N) (p : Fin 5000) (k : Fin 1) :
    iblk2 V c 1 t (ix2 p k) = V c main_v14 (ix2 (row t p) k) := by
  obtain ⟨-, -, e10, e11, -⟩ := idx_facts t
  show V c main_v14 (((cfg2.win 1).blk t).view.emb (ix2 p k)) = V c main_v14 (ix2 (row t p) k)
  refine congrArg (V c main_v14) (funext fun a => Fin.ext ?_)
  match a with
  | ⟨0, _⟩ => show win2_1.index t (0 : Fin 2) * 5000 + 1 * p.val = t.val * 5000 + p.val; omega
  | ⟨1, _⟩ => show win2_1.index t (1 : Fin 2) * 1 + 1 * k.val = k.val; omega

theorem read2 (c : Dev nD) (t : Fin cfg2.N) (k : Fin 128) (q : Fin 128) :
    iblk2 V c 2 t (ix2 k q) = V c main_arg6 (ix2 k q) := by
  obtain ⟨-, -, -, -, e20, e21, -⟩ := idx_facts t
  show V c main_arg6 (((cfg2.win 2).blk t).view.emb (ix2 k q)) = V c main_arg6 (ix2 k q)
  refine congrArg (V c main_arg6) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

theorem read3 (c : Dev nD) (t : Fin cfg2.N) (u : Fin 1) (q : Fin 128) :
    iblk2 V c 3 t (ix2 u q) = V c main_v52 (ix2 u q) := by
  obtain ⟨-, -, -, -, -, -, e30, e31, -⟩ := idx_facts t
  show V c main_v52 (((cfg2.win 3).blk t).view.emb (ix2 u q)) = V c main_v52 (ix2 u q)
  refine congrArg (V c main_v52) (funext fun a => Fin.ext ?_)
  match a with
  | ⟨0, _⟩ => show win2_3.index t (0 : Fin 2) * 1 + 1 * u.val = u.val; omega
  | ⟨1, _⟩ => show win2_3.index t (1 : Fin 2) * 128 + 1 * q.val = q.val; omega

/-- What point t writes back is block t of the whole-array function. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero off0]
  simp only [View.ld_unit_zero (S := S5000x128) off0, View.ld_unit_zero (S := S5000x1) off0,
    View.ld_unit_zero (S := S128x128) off0, View.ld_unit_zero (S := S1x128) off0]
  funext j
  obtain ⟨p, q, rfl⟩ : ∃ (p : Fin 5000) (q : Fin 128), j = ix2 p q := ⟨j 0, j 1, eq_ix2 j⟩
  refine (DensePay.k2_pay1_apply (iblk2 V c 0 t) (iblk2 V c 1 t) (iblk2 V c 2 t) (iblk2 V c 3 t) p q).trans ?_
  have e4 : ((cfg2.win 4).blk t).view.emb (ix2 p q) = ix2 (row t p) q := by
    obtain ⟨-, -, -, -, -, -, -, -, e40, e41⟩ := idx_facts t
    refine funext fun a => Fin.ext ?_
    match a with
    | ⟨0, _⟩ => show win2_4.index t (0 : Fin 2) * 5000 + 1 * p.val = t.val * 5000 + p.val; omega
    | ⟨1, _⟩ => show win2_4.index t (1 : Fin 2) * 128 + 1 * q.val = q.val; omega
  show _ = G V c (((cfg2.win 4).blk t).view.emb (ix2 p q))
  rw [e4]
  show _ = Spec.denseLastAt (V c main_v51) (V c main_v14) (V c main_arg6) (V c main_v52) (row t p) q
  unfold Spec.denseLastAt
  rw [read3 V c t (0 : Fin 1) q]
  refine congrArg (fun z => z + V c main_v52 (ix2 (0 : Fin 1) q)) ?_
  refine Finset.sum_congr rfl fun k _ => ?_
  rw [read0 V c t p k, read1 V c t p (0 : Fin 1), read2 V c t k q]

/-- An index is in point t's block iff its row lies in the block's range. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53).slice (win2_4.rect t)).set ↔ _
  rw [View.set_slice_whole, Rect.mem_set_unit]
  exact Iff.rfl

/-- Every entry of the output is in the block of the point its row falls in. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨-, -, -, -, -, -, -, -, e40, e41⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region. -/
theorem final (c : Dev nD) : (dat2 V c).arrAt 4 cfg2.N = G V c :=
  (dat2 V c).arrAt_eq_of_cover 4 (G V c) (fun t _ => flushed_eq V c t) cover

end Cert.KernelIdeal.Region2

end
-- ==== Proof.MlpPay.lean ====
/-
  The read-out head's kernel body, read at one entry.

  The body takes the per-graph feature sums `sy` (2000 × 128), node counts `cnt` (2000 × 1), graph features `fg`
  (2000 × 3), the two parts `wa` (128 × 256) and `wb` (3 × 256) of the first weight matrix with its bias row, the
  second weight matrix (256 × 256) with its bias row, and the last (256 × 1) with its bias.  It divides each sum by
  max(count, 1), multiplies the mean by `wa` and the graph features by `wb`, adds the two products and the bias and
  clamps at zero; then a second product, bias and clamp; then a last product and bias.  At the ideal values each
  rounding to bf16 is the identity and each product into the zero accumulator is a plain sum, so the stored value
  at graph g is the specification's `head3At` of `head2At` of `head1At`.
-/
import proofs.«156721_j41420664602929_2_alg».proof.Proof.Gen.KernelIdeal.Skeleton
import proofs.«156721_j41420664602929_2_alg».proof.Proof.LibMatmulZero
import proofs.«156721_j41420664602929_2_alg».proof.Proof.LibRowOps
import proofs.«156721_j41420664602929_2_alg».proof.Proof.Spec
import Idealize.ShloMosaic.Lib.ValueLayout
import Idealize.ShloMosaic.Lib.Pipeline.Value

noncomputable section

namespace Cert.KernelIdeal.MlpPay

open Cert.KernelIdeal Cert.KernelIdeal.Gen Idealize.ShloMosaic Idealize.ShloMosaic.ValueIdx

/-- The product of the 2000 × 128 means by the 128 × 256 weights into the zero accumulator is the sum over 128 positions. -/
theorem mmA (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) :=
  Cert.LibMatmulZero.matmul_zero_ix2 dot_S2000x128_S128x256_S2000x256_1_0_0_1_n_n rfl rfl rfl rfl
    (fun i c => by
      unfold DotDims.lhsIdx
      rw [dif_neg (show ¬(0 : Fin _) ∈ dot_S2000x128_S128x256_S2000x256_1_0_0_1_n_n.lhsBatch by decide),
        dif_pos (show (0 : Fin _) ∈ dot_S2000x128_S128x256_S2000x256_1_0_0_1_n_n.lhsNonContracting by decide)]
      rfl)
    (fun i c => by
      unfold DotDims.rhsIdx
      rw [dif_neg (show ¬(1 : Fin _) ∈ dot_S2000x128_S128x256_S2000x256_1_0_0_1_n_n.rhsBatch by decide),
        dif_pos (show (1 : Fin _) ∈ dot_S2000x128_S128x256_S2000x256_1_0_0_1_n_n.rhsNonContracting by decide)]
      rfl)
    none l r p q

/-- The product of the 2000 × 3 graph features by the 3 × 256 weights into the zero accumulator is the sum over 3 positions. -/
theorem mmB (l : FVec Ideal S2000x3 .bf16) (r : FVec Ideal S3x256 .bf16) (p : Fin 2000) (q : Fin 256) :
    matmul dot_S2000x3_S3x256_S2000x256_1_0_0_1_n_n none l r (constant S2000x256 .f32 0x00000000#32) (ix2 p q)
      = ∑ k : Fin 3, l (ix2 p k) * r (ix2 k q) :=
  Cert.LibMatmulZero.matmul_zero_ix2 dot_S2000x3_S3x256_S2000x256_1_0_0_1_n_n rfl rfl rfl rfl
    (fun i c => by
      unfold DotDims.lhsIdx
      rw [dif_neg (show ¬(0 : Fin _) ∈ dot_S2000x3_S3x256_S2000x256_1_0_0_1_n_n.lhsBatch by decide),
        dif_pos (show (0 : Fin _) ∈ dot_S2000x3_S3x256_S2000x256_1_0_0_1_n_n.lhsNonContracting by decide)]
      rfl)
    (fun i c => by
      unfold DotDims.rhsIdx
      rw [dif_neg (show ¬(1 : Fin _) ∈ dot_S2000x3_S3x256_S2000x256_1_0_0_1_n_n.rhsBatch by decide),
        dif_pos (show (1 : Fin _) ∈ dot_S2000x3_S3x256_S2000x256_1_0_0_1_n_n.rhsNonContracting by decide)]
      rfl)
    none l r p q

/-- The product of a 2000 × 256 hidden array by the 256 × 256 weights into the zero accumulator is the sum over 256 positions. -/
theorem mmC (l : FVec Ideal S2000x256 .bf16) (r : FVec Ideal S256x256 .bf16) (p : Fin 2000) (q : Fin 256) :
    matmul dot_S2000x256_S256x256_S2000x256_1_0_0_1_n_n none l r (constant S2000x256 .f32 0x00000000#32) (ix2 p q)
      = ∑ k : Fin 256, l (ix2 p k) * r (ix2 k q) :=
  Cert.LibMatmulZero.matmul_zero_ix2 dot_S2000x256_S256x256_S2000x256_1_0_0_1_n_n rfl rfl rfl rfl
    (fun i c => by
      unfold DotDims.lhsIdx
      rw [dif_neg (show ¬(0 : Fin _) ∈ dot_S2000x256_S256x256_S2000x256_1_0_0_1_n_n.lhsBatch by decide),
        dif_pos (show (0 : Fin _) ∈ dot_S2000x256_S256x256_S2000x256_1_0_0_1_n_n.lhsNonContracting by decide)]
      rfl)
    (fun i c => by
      unfold DotDims.rhsIdx
      rw [dif_neg (show ¬(1 : Fin _) ∈ dot_S2000x256_S256x256_S2000x256_1_0_0_1_n_n.rhsBatch by decide),
        dif_pos (show (1 : Fin _) ∈ dot_S2000x256_S256x256_S2000x256_1_0_0_1_n_n.rhsNonContracting by decide)]
      rfl)
    none l r p q

/-- The product of a 2000 × 256 hidden array by the 256 × 1 weights into the zero accumulator is the sum over 256 positions. -/
theorem mmD (l : FVec Ideal S2000x256 .bf16) (r : FVec Ideal S256x1 .bf16) (p : Fin 2000) (q : Fin 1) :
    matmul dot_S2000x256_S256x1_S2000x1_1_0_0_1_n_n none l r (constant S2000x1 .f32 0x00000000#32) (ix2 p q)
      = ∑ k : Fin 256, l (ix2 p k) * r (ix2 k q) :=
  Cert.LibMatmulZero.matmul_zero_ix2 dot_S2000x256_S256x1_S2000x1_1_0_0_1_n_n rfl rfl rfl rfl
    (fun i c => by
      unfold DotDims.lhsIdx
      rw [dif_neg (show ¬(0 : Fin _) ∈ dot_S2000x256_S256x1_S2000x1_1_0_0_1_n_n.lhsBatch by decide),
        dif_pos (show (0 : Fin _) ∈ dot_S2000x256_S256x1_S2000x1_1_0_0_1_n_n.lhsNonContracting by decide)]
      rfl)
    (fun i c => by
      unfold DotDims.rhsIdx
      rw [dif_neg (show ¬(1 : Fin _) ∈ dot_S2000x256_S256x1_S2000x1_1_0_0_1_n_n.rhsBatch by decide),
        dif_pos (show (1 : Fin _) ∈ dot_S2000x256_S256x1_S2000x1_1_0_0_1_n_n.rhsNonContracting by decide)]
      rfl)
    none l r p q

/-- The second hidden array the body computes, at graph g and column j. -/
theorem k3_pay2_apply (sy : Vec Ideal S2000x128 .f32) (cnt : Vec Ideal S2000x1 .f32) (fg : Vec Ideal S2000x3 .f32)
    (wa : Vec Ideal S128x256 .f32) (wb : Vec Ideal S3x256 .f32) (b1 : Vec Ideal S1x256 .f32) (w2 : Vec Ideal S256x256 .f32)
    (b2 : Vec Ideal S1x256 .f32) (g : Fin 2000) (j : Fin 256) :
    k3_pay2 (F := Ideal) sy cnt fg wa wb b1 w2 b2 (ix2 g j)
      = Spec.head2At (Spec.head1At sy cnt fg wa wb b1) w2 b2 g j := by
  unfold k3_pay2
  simp only [shapeCast_self]
  rw [maximumf_apply, addf_apply, broadcast_apply, mmC, broadcastTo_1b_ab_apply]
  unfold Spec.head2At
  refine congrArg (fun z => max (z + b2 (ix2 (0 : Fin 1) j)) Spec.w0) ?_
  refine Finset.sum_congr rfl fun k _ => ?_
  rw [truncf_apply, truncf_apply, maximumf_apply, addf_apply, addf_apply, broadcast_apply, mmA, mmB, broadcastTo_1b_ab_apply]
  unfold Spec.head1At
  refine congrArg₂ (fun u v => max ((u + v) + b1 (ix2 (0 : Fin 1) k)) Spec.w0 * w2 (ix2 k j))
    (Finset.sum_congr rfl fun k' _ => ?_) (Finset.sum_congr rfl fun k' _ => ?_)
  · rw [truncf_apply, truncf_apply, divf_apply, Cert.LibRowOps.broadcastTo_a1_ab_apply, maximumf_apply, broadcast_apply]
    rfl
  · rw [truncf_apply, truncf_apply]

/-- The body's stored value at graph g. -/
theorem k3_pay1_apply (h : FVec Ideal S2000x256 .f32) (w3 : Vec Ideal S256x1 .f32) (b3 : Vec Ideal S1x1 .f32)
    (g : Fin 2000) (u : Fin 1) :
    k3_pay1 (F := Ideal) h w3 b3 (ix2 g u) = (∑ k : Fin 256, h (ix2 g k) * w3 (ix2 k u)) + b3 (ix2 (0 : Fin 1) u) := by
  unfold k3_pay1
  simp only [shapeCast_self]
  rw [addf_apply, mmD, broadcastTo_1b_ab_apply]
  refine congrArg (fun z => z + b3 (ix2 (0 : Fin 1) u)) ?_
  refine Finset.sum_congr rfl fun k _ => ?_
  rw [truncf_apply, truncf_apply]

end Cert.KernelIdeal.MlpPay

end
-- ==== Proof.Region3.lean ====
/-
  The read-out head's region: its output array, as one function of the arrays it reads.

  The region has a single grid point, and every window's one block is the whole of its array: the per-graph sums,
  the counts, the graph features, the two parts of the first weight matrix, the other weights and the bias rows.  So
  the point reads the arrays themselves and writes the whole 2000 × 1 output, which ends holding the specification's
  `Spec.head` of the arrays the region finds.
-/
import proofs.«156721_j41420664602929_2_alg».proof.Proof.Gen.KernelIdeal.Frame
import proofs.«156721_j41420664602929_2_alg».proof.Proof.MlpPay
import proofs.«156721_j41420664602929_2_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem off0 : (![0, 0] : Fin 2 → Nat) = fun _ => 0 := funext fun a => by fin_cases a <;> rfl

/-- Every window sits at block (0, 0) at the one grid point. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

/-- The whole-array function the region leaves in its output. -/
abbrev G (c : Dev nD) : S2000x1.Idx → Elt Ideal .f32 :=
  Spec.head (V c main_v56) (V c main_v61) (V c main_arg1) (V c main_v62) (V c main_v63) (V c main_v64)
    (V c main_arg10) (V c main_v65) (V c main_arg12) (V c main_v66)

/-- Window 0's one block is the whole of its array. -/
theorem blk0 (c : Dev nD) (t : Fin cfg3.N) : (iblk3 V c 0 t : S2000x128.Idx → Elt Ideal .f32) = V c main_v56 := by
  have hf := idx_facts t
  funext y
  show V c main_v56 (((cfg3.win 0).blk t).view.emb y) = V c main_v56 y
  refine congrArg (V c main_v56) (funext fun a => Fin.ext ?_)
  match a with
  | ⟨0, _⟩ => show win3_0.index t (0 : Fin 2) * 2000 + 1 * (y 0).val = (y 0).val; omega
  | ⟨1, _⟩ => show win3_0.index t (1 : Fin 2) * 128 + 1 * (y 1).val = (y 1).val; omega

/-- Window 1's one block is the whole of its array. -/
theorem blk1 (c : Dev nD) (t : Fin cfg3.N) : (iblk3 V c 1 t : S2000x1.Idx → Elt Ideal .f32) = V c main_v61 := by
  have hf := idx_facts t
  funext y
  show V c main_v61 (((cfg3.win 1).blk t).view.emb y) = V c main_v61 y
  refine congrArg (V c main_v61) (funext fun a => Fin.ext ?_)
  match a with
  | ⟨0, _⟩ => show win3_1.index t (0 : Fin 2) * 2000 + 1 * (y 0).val = (y 0).val; omega
  | ⟨1, _⟩ => show win3_1.index t (1 : Fin 2) * 1 + 1 * (y 1).val = (y 1).val; omega

/-- Window 2's one block is the whole of its array. -/
theorem blk2 (c : Dev nD) (t : Fin cfg3.N) : (iblk3 V c 2 t : S2000x3.Idx → Elt Ideal .f32) = V c main_arg1 := by
  have hf := idx_facts t
  funext y
  show V c main_arg1 (((cfg3.win 2).blk t).view.emb y) = V c main_arg1 y
  refine congrArg (V c main_arg1) (funext fun a => Fin.ext ?_)
  match a with
  | ⟨0, _⟩ => show win3_2.index t (0 : Fin 2) * 2000 + 1 * (y 0).val = (y 0).val; omega
  | ⟨1, _⟩ => show win3_2.index t (1 : Fin 2) * 3 + 1 * (y 1).val = (y 1).val; omega

/-- Window 3's one block is the whole of its array. -/
theorem blk3 (c : Dev nD) (t : Fin cfg3.N) : (iblk3 V c 3 t : S128x256.Idx → Elt Ideal .f32) = V c main_v62 := by
  have hf := idx_facts t
  funext y
  show V c main_v62 (((cfg3.win 3).blk t).view.emb y) = V c main_v62 y
  refine congrArg (V c main_v62) (funext fun a => Fin.ext ?_)
  match a with
  | ⟨0, _⟩ => show win3_3.index t (0 : Fin 2) * 128 + 1 * (y 0).val = (y 0).val; omega
  | ⟨1, _⟩ => show win3_3.index t (1 : Fin 2) * 256 + 1 * (y 1).val = (y 1).val; omega

/-- Window 4's one block is the whole of its array. -/
theorem blk4 (c : Dev nD) (t : Fin cfg3.N) : (iblk3 V c 4 t : S3x256.Idx → Elt Ideal .f32) = V c main_v63 := by
  have hf := idx_facts t
  funext y
  show V c main_v63 (((cfg3.win 4).blk t).view.emb y) = V c main_v63 y
  refine congrArg (V c main_v63) (funext fun a => Fin.ext ?_)
  match a with
  | ⟨0, _⟩ => show win3_4.index t (0 : Fin 2) * 3 + 1 * (y 0).val = (y 0).val; omega
  | ⟨1, _⟩ => show win3_4.index t (1 : Fin 2) * 256 + 1 * (y 1).val = (y 1).val; omega

/-- Window 5's one block is the whole of its array. -/
theorem blk5 (c : Dev nD) (t : Fin cfg3.N) : (iblk3 V c 5 t : S1x256.Idx → Elt Ideal .f32) = V c main_v64 := by
  have hf := idx_facts t
  funext y
  show V c main_v64 (((cfg3.win 5).blk t).view.emb y) = V c main_v64 y
  refine congrArg (V c main_v64) (funext fun a => Fin.ext ?_)
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Window 6's one block is the whole of its array. -/
theorem blk6 (c : Dev nD) (t : Fin cfg3.N) : (iblk3 V c 6 t : S256x256.Idx → Elt Ideal .f32) = V c main_arg10 := by
  have hf := idx_facts t
  funext y
  show V c main_arg10 (((cfg3.win 6).blk t).view.emb y) = V c main_arg10 y
  refine congrArg (V c main_arg10) (funext fun a => Fin.ext ?_)
  match a with
  | ⟨0, _⟩ => show win3_6.index t (0 : Fin 2) * 256 + 1 * (y 0).val = (y 0).val; omega
  | ⟨1, _⟩ => show win3_6.index t (1 : Fin 2) * 256 + 1 * (y 1).val = (y 1).val; omega

/-- Window 7's one block is the whole of its array. -/
theorem blk7 (c : Dev nD) (t : Fin cfg3.N) : (iblk3 V c 7 t : S1x256.Idx → Elt Ideal .f32) = V c main_v65 := by
  have hf := idx_facts t
  funext y
  show V c main_v65 (((cfg3.win 7).blk t).view.emb y) = V c main_v65 y
  refine congrArg (V c main_v65) (funext fun a => Fin.ext ?_)
  match a with
  | ⟨0, _⟩ => show win3_7.index t (0 : Fin 2) * 1 + 1 * (y 0).val = (y 0).val; omega
  | ⟨1, _⟩ => show win3_7.index t (1 : Fin 2) * 256 + 1 * (y 1).val = (y 1).val; omega

/-- Window 8's one block is the whole of its array. -/
theorem blk8 (c : Dev nD) (t : Fin cfg3.N) : (iblk3 V c 8 t : S256x1.Idx → Elt Ideal .f32) = V c main_arg12 := by
  have hf := idx_facts t
  funext y
  show V c main_arg12 (((cfg3.win 8).blk t).view.emb y) = V c main_arg12 y
  refine congrArg (V c main_arg12) (funext fun a => Fin.ext ?_)
  match a with
  | ⟨0, _⟩ => show win3_8.index t (0 : Fin 2) * 256 + 1 * (y 0).val = (y 0).val; omega
  | ⟨1, _⟩ => show win3_8.index t (1 : Fin 2) * 1 + 1 * (y 1).val = (y 1).val; omega

/-- Window 9's one block is the whole of its array. -/
theorem blk9 (c : Dev nD) (t : Fin cfg3.N) : (iblk3 V c 9 t : S1x1.Idx → Elt Ideal .f32) = V c main_v66 := by
  have hf := idx_facts t
  funext y
  show V c main_v66 (((cfg3.win 9).blk t).view.emb y) = V c main_v66 y
  refine congrArg (V c main_v66) (funext fun a => Fin.ext ?_)
  match a with
  | ⟨0, _⟩ => show win3_9.index t (0 : Fin 2) * 1 + 1 * (y 0).val = (y 0).val; omega
  | ⟨1, _⟩ => show win3_9.index t (1 : Fin 2) * 1 + 1 * (y 1).val = (y 1).val; omega

/-- What the point writes back is the whole-array function, read through the one block. -/
theorem flushed_eq (c : Dev nD) (t : Fin cfg3.N) :
    (dat3 V c).flushed 10 t = ((cfg3.win 10).blk t).view.read (Elt Ideal) (G V c) := by
  show (cfg3.win 10).cut (grid3.coords t) ((dat3 V c).after 10 t) = _
  rw [after3_10]
  unfold out3_10
  rw [View.canon_unit_zero off0]
  simp only [View.ld_unit_zero (S := S2000x128) off0, View.ld_unit_zero (S := S2000x1) off0, View.ld_unit_zero (S := S2000x3) off0,
    View.ld_unit_zero (S := S128x256) off0, View.ld_unit_zero (S := S3x256) off0, View.ld_unit_zero (S := S1x256) off0,
    View.ld_unit_zero (S := S256x256) off0, View.ld_unit_zero (S := S256x1) off0, View.ld_unit_zero (S := S1x1) off0]
  rw [blk0 V c t, blk1 V c t, blk2 V c t, blk3 V c t, blk4 V c t, blk5 V c t, blk6 V c t, blk7 V c t, blk8 V c t, blk9 V c t]
  funext j
  obtain ⟨g, u, rfl⟩ : ∃ (g : Fin 2000) (u : Fin 1), j = ix2 g u := ⟨j 0, j 1, eq_ix2 j⟩
  obtain rfl : u = 0 := Subsingleton.elim _ _
  have e10 : ((cfg3.win 10).blk t).view.emb (ix2 g (0 : Fin 1)) = ix2 g (0 : Fin 1) := by
    have hf := idx_facts t
    refine funext fun a => Fin.ext ?_
    match a with
    | ⟨0, _⟩ => show win3_10.index t (0 : Fin 2) * 2000 + 1 * g.val = g.val; omega
    | ⟨1, _⟩ => show win3_10.index t (1 : Fin 2) * 1 + 1 * 0 = 0; omega
  show _ = G V c (((cfg3.win 10).blk t).view.emb (ix2 g (0 : Fin 1)))
  rw [e10]
  show _ = Spec.head3At (Spec.head2At (Spec.head1At (V c main_v56) (V c main_v61) (V c main_arg1) (V c main_v62) (V c main_v63)
    (V c main_v64)) (V c main_arg10) (V c main_v65)) (V c main_arg12) (V c main_v66) g
  unfold Spec.head3At
  refine (MlpPay.k3_pay1_apply (k3_pay2 (F := Ideal) (V c main_v56) (V c main_v61) (V c main_arg1) (V c main_v62) (V c main_v63) (V c main_v64) (V c main_arg10) (V c main_v65))
    (V c main_arg12) (V c main_v66) g (0 : Fin 1)).trans ?_
  simp only [MlpPay.k3_pay2_apply]

/-- An index is in the point's block iff each coordinate is in the block's range. -/
theorem mem_blk (t : Fin cfg3.N) (i : S2000x1.Idx) :
    i ∈ ((cfg3.win 10).blk t).view.set ↔ ∀ a : Fin 2, win3_10.index t a * S2000x1.size a ≤ (i a).val ∧ (i a).val < win3_10.index t a * S2000x1.size a + S2000x1.size a := by
  show i ∈ ((View.whole main_v67).slice (win3_10.rect t)).set ↔ _
  rw [View.set_slice_whole, Rect.mem_set_unit]
  exact Iff.rfl

/-- Every entry of the output is in the one point's block. -/
theorem cover (i : S2000x1.Idx) : ∃ t : Fin cfg3.N, (cfg3.win 10).flush t = true ∧ i ∈ ((cfg3.win 10).blk t).view.set := by
  have hi0 : (i 0).val < 2000 := (i 0).isLt
  have hi1 : (i 1).val < 1 := (i 1).isLt
  let t : Fin cfg3.N := ⟨0, by rw [show cfg3.N = 1 from N_3]; omega⟩
  have hf := idx_facts t
  refine ⟨t, flush3_10 t, ?_⟩
  rw [mem_blk]
  intro a
  match a with
  | ⟨0, _⟩ => show win3_10.index t (0 : Fin 2) * 2000 ≤ (i 0).val ∧ (i 0).val < win3_10.index t (0 : Fin 2) * 2000 + 2000; omega
  | ⟨1, _⟩ => show win3_10.index t (1 : Fin 2) * 1 ≤ (i 1).val ∧ (i 1).val < win3_10.index t (1 : Fin 2) * 1 + 1; omega

/-- The output array after the region. -/
theorem final (c : Dev nD) : (dat3 V c).arrAt 10 cfg3.N = G V c :=
  (dat3 V c).arrAt_eq_of_cover 10 (G V c) (fun t _ => flushed_eq V c t) cover

end Cert.KernelIdeal.Region3

end
-- ==== Proof.HostKeep.lean ====
/-
  What the host stretches and the regions leave untouched.

  The idealized kernel program's buffers are followed through nine boundaries: `W1`, `W3`, `W5`, `W7`, `W9` after
  the five stretches of host operations, `W2`, `W4`, `W6`, `W8` after the four regions.  A host operation changes only
  the buffer it writes, and a region changes only its own windows' arrays.  No argument array is ever written, so at
  every boundary an argument array holds what the launch memory gave it; and the two normalisation arrays computed
  in the first stretch (the two factors side by side, and the in-degree factor alone) are still there when the later
  layers' regions read them.
-/
import proofs.«156721_j41420664602929_2_alg».proof.Proof.Gen.KernelIdeal.Frame

set_option maxRecDepth 16384

noncomputable section

namespace Cert.KernelIdeal.HostKeep

open Cert.KernelIdeal Cert.KernelIdeal.Gen Idealize.ShloMosaic Idealize.ShloMosaic.TcCoe Idealize.SL.Sem

/-- A stretch of host operations none of which writes the reference leaves its buffer as it was: each operation's
    one written reference is another one. -/
macro "keeps " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-! ## The argument arrays, at each boundary up to the last one that reads them -/

theorem W1_arg0 (c : Dev nD) : W1 m ρ c (Proc.devRef .tc main_arg0) = m ((c : Thread nD τ).loc main_arg0) :=
  (by keeps hostOps0 : W1 m ρ c (Proc.devRef .tc main_arg0) = W0 m ρ c (Proc.devRef .tc main_arg0)).trans rfl
theorem W1_arg1 (c : Dev nD) : W1 m ρ c (Proc.devRef .tc main_arg1) = m ((c : Thread nD τ).loc main_arg1) :=
  (by keeps hostOps0 : W1 m ρ c (Proc.devRef .tc main_arg1) = W0 m ρ c (Proc.devRef .tc main_arg1)).trans rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (by keeps hostOps1 : W3 m ρ c (Proc.devRef .tc main_arg1) = W2 m ρ c (Proc.devRef .tc main_arg1)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (by keeps hostOps2 : W5 m ρ c (Proc.devRef .tc main_arg1) = W4 m ρ c (Proc.devRef .tc main_arg1)).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
theorem W7_arg1 (c : Dev nD) : W7 m ρ c (Proc.devRef .tc main_arg1) = m ((c : Thread nD τ).loc main_arg1) :=
  (by keeps hostOps3 : W7 m ρ c (Proc.devRef .tc main_arg1) = W6 m ρ c (Proc.devRef .tc main_arg1)).trans (W6_arg1 m ρ c)
theorem W1_arg2 (c : Dev nD) : W1 m ρ c (Proc.devRef .tc main_arg2) = m ((c : Thread nD τ).loc main_arg2) :=
  (by keeps hostOps0 : W1 m ρ c (Proc.devRef .tc main_arg2) = W0 m ρ c (Proc.devRef .tc main_arg2)).trans rfl
theorem W1_arg3 (c : Dev nD) : W1 m ρ c (Proc.devRef .tc main_arg3) = m ((c : Thread nD τ).loc main_arg3) :=
  (by keeps hostOps0 : W1 m ρ c (Proc.devRef .tc main_arg3) = W0 m ρ c (Proc.devRef .tc main_arg3)).trans rfl
theorem W1_arg4 (c : Dev nD) : W1 m ρ c (Proc.devRef .tc main_arg4) = m ((c : Thread nD τ).loc main_arg4) :=
  (by keeps hostOps0 : W1 m ρ c (Proc.devRef .tc main_arg4) = W0 m ρ c (Proc.devRef .tc main_arg4)).trans rfl
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (by keeps hostOps1 : W3 m ρ c (Proc.devRef .tc main_arg4) = W2 m ρ c (Proc.devRef .tc main_arg4)).trans (W2_arg4 m ρ c)
theorem W1_arg5 (c : Dev nD) : W1 m ρ c (Proc.devRef .tc main_arg5) = m ((c : Thread nD τ).loc main_arg5) :=
  (by keeps hostOps0 : W1 m ρ c (Proc.devRef .tc main_arg5) = W0 m ρ c (Proc.devRef .tc main_arg5)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W1_arg6 (c : Dev nD) : W1 m ρ c (Proc.devRef .tc main_arg6) = m ((c : Thread nD τ).loc main_arg6) :=
  (by keeps hostOps0 : W1 m ρ c (Proc.devRef .tc main_arg6) = W0 m ρ c (Proc.devRef .tc main_arg6)).trans rfl
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (by keeps hostOps1 : W3 m ρ c (Proc.devRef .tc main_arg6) = W2 m ρ c (Proc.devRef .tc main_arg6)).trans (W2_arg6 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg6 (c : Dev nD) : W5 m ρ c (Proc.devRef .tc main_arg6) = m ((c : Thread nD τ).loc main_arg6) :=
  (by keeps hostOps2 : W5 m ρ c (Proc.devRef .tc main_arg6) = W4 m ρ c (Proc.devRef .tc main_arg6)).trans (W4_arg6 m ρ c)
theorem W1_arg7 (c : Dev nD) : W1 m ρ c (Proc.devRef .tc main_arg7) = m ((c : Thread nD τ).loc main_arg7) :=
  (by keeps hostOps0 : W1 m ρ c (Proc.devRef .tc main_arg7) = W0 m ρ c (Proc.devRef .tc main_arg7)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (by keeps hostOps1 : W3 m ρ c (Proc.devRef .tc main_arg7) = W2 m ρ c (Proc.devRef .tc main_arg7)).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W1_arg8 (c : Dev nD) : W1 m ρ c (Proc.devRef .tc main_arg8) = m ((c : Thread nD τ).loc main_arg8) :=
  (by keeps hostOps0 : W1 m ρ c (Proc.devRef .tc main_arg8) = W0 m ρ c (Proc.devRef .tc main_arg8)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (by keeps hostOps1 : W3 m ρ c (Proc.devRef .tc main_arg8) = W2 m ρ c (Proc.devRef .tc main_arg8)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) :=
  (by keeps hostOps2 : W5 m ρ c (Proc.devRef .tc main_arg8) = W4 m ρ c (Proc.devRef .tc main_arg8)).trans (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W1_arg9 (c : Dev nD) : W1 m ρ c (Proc.devRef .tc main_arg9) = m ((c : Thread nD τ).loc main_arg9) :=
  (by keeps hostOps0 : W1 m ρ c (Proc.devRef .tc main_arg9) = W0 m ρ c (Proc.devRef .tc main_arg9)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (by keeps hostOps1 : W3 m ρ c (Proc.devRef .tc main_arg9) = W2 m ρ c (Proc.devRef .tc main_arg9)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) :=
  (by keeps hostOps2 : W5 m ρ c (Proc.devRef .tc main_arg9) = W4 m ρ c (Proc.devRef .tc main_arg9)).trans (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W1_arg10 (c : Dev nD) : W1 m ρ c (Proc.devRef .tc main_arg10) = m ((c : Thread nD τ).loc main_arg10) :=
  (by keeps hostOps0 : W1 m ρ c (Proc.devRef .tc main_arg10) = W0 m ρ c (Proc.devRef .tc main_arg10)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (by keeps hostOps1 : W3 m ρ c (Proc.devRef .tc main_arg10) = W2 m ρ c (Proc.devRef .tc main_arg10)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W5_arg10 (c : Dev nD) : W5 m ρ c (Proc.devRef .tc main_arg10) = m ((c : Thread nD τ).loc main_arg10) :=
  (by keeps hostOps2 : W5 m ρ c (Proc.devRef .tc main_arg10) = W4 m ρ c (Proc.devRef .tc main_arg10)).trans (W4_arg10 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W7_arg10 (c : Dev nD) : W7 m ρ c (Proc.devRef .tc main_arg10) = m ((c : Thread nD τ).loc main_arg10) :=
  (by keeps hostOps3 : W7 m ρ c (Proc.devRef .tc main_arg10) = W6 m ρ c (Proc.devRef .tc main_arg10)).trans (W6_arg10 m ρ c)
theorem W1_arg11 (c : Dev nD) : W1 m ρ c (Proc.devRef .tc main_arg11) = m ((c : Thread nD τ).loc main_arg11) :=
  (by keeps hostOps0 : W1 m ρ c (Proc.devRef .tc main_arg11) = W0 m ρ c (Proc.devRef .tc main_arg11)).trans rfl
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (by keeps hostOps1 : W3 m ρ c (Proc.devRef .tc main_arg11) = W2 m ρ c (Proc.devRef .tc main_arg11)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W5_arg11 (c : Dev nD) : W5 m ρ c (Proc.devRef .tc main_arg11) = m ((c : Thread nD τ).loc main_arg11) :=
  (by keeps hostOps2 : W5 m ρ c (Proc.devRef .tc main_arg11) = W4 m ρ c (Proc.devRef .tc main_arg11)).trans (W4_arg11 m ρ c)
theorem W6_arg11 (c : Dev nD) : W6 m ρ c (Proc.devRef .tc main_arg11) = m ((c : Thread nD τ).loc main_arg11) :=
  (W6_of_ne m ρ c main_arg11 (by decide)).trans (W5_arg11 m ρ c)
theorem W1_arg12 (c : Dev nD) : W1 m ρ c (Proc.devRef .tc main_arg12) = m ((c : Thread nD τ).loc main_arg12) :=
  (by keeps hostOps0 : W1 m ρ c (Proc.devRef .tc main_arg12) = W0 m ρ c (Proc.devRef .tc main_arg12)).trans rfl
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (by keeps hostOps1 : W3 m ρ c (Proc.devRef .tc main_arg12) = W2 m ρ c (Proc.devRef .tc main_arg12)).trans (W2_arg12 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W5_arg12 (c : Dev nD) : W5 m ρ c (Proc.devRef .tc main_arg12) = m ((c : Thread nD τ).loc main_arg12) :=
  (by keeps hostOps2 : W5 m ρ c (Proc.devRef .tc main_arg12) = W4 m ρ c (Proc.devRef .tc main_arg12)).trans (W4_arg12 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W7_arg12 (c : Dev nD) : W7 m ρ c (Proc.devRef .tc main_arg12) = m ((c : Thread nD τ).loc main_arg12) :=
  (by keeps hostOps3 : W7 m ρ c (Proc.devRef .tc main_arg12) = W6 m ρ c (Proc.devRef .tc main_arg12)).trans (W6_arg12 m ρ c)
theorem W1_arg13 (c : Dev nD) : W1 m ρ c (Proc.devRef .tc main_arg13) = m ((c : Thread nD τ).loc main_arg13) :=
  (by keeps hostOps0 : W1 m ρ c (Proc.devRef .tc main_arg13) = W0 m ρ c (Proc.devRef .tc main_arg13)).trans rfl
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (by keeps hostOps1 : W3 m ρ c (Proc.devRef .tc main_arg13) = W2 m ρ c (Proc.devRef .tc main_arg13)).trans (W2_arg13 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W5_arg13 (c : Dev nD) : W5 m ρ c (Proc.devRef .tc main_arg13) = m ((c : Thread nD τ).loc main_arg13) :=
  (by keeps hostOps2 : W5 m ρ c (Proc.devRef .tc main_arg13) = W4 m ρ c (Proc.devRef .tc main_arg13)).trans (W4_arg13 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W1_arg14 (c : Dev nD) : W1 m ρ c (Proc.devRef .tc main_arg14) = m ((c : Thread nD τ).loc main_arg14) :=
  (by keeps hostOps0 : W1 m ρ c (Proc.devRef .tc main_arg14) = W0 m ρ c (Proc.devRef .tc main_arg14)).trans rfl
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (by keeps hostOps1 : W3 m ρ c (Proc.devRef .tc main_arg14) = W2 m ρ c (Proc.devRef .tc main_arg14)).trans (W2_arg14 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W1_arg15 (c : Dev nD) : W1 m ρ c (Proc.devRef .tc main_arg15) = m ((c : Thread nD τ).loc main_arg15) :=
  (by keeps hostOps0 : W1 m ρ c (Proc.devRef .tc main_arg15) = W0 m ρ c (Proc.devRef .tc main_arg15)).trans rfl
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (by keeps hostOps1 : W3 m ρ c (Proc.devRef .tc main_arg15) = W2 m ρ c (Proc.devRef .tc main_arg15)).trans (W2_arg15 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W1_arg16 (c : Dev nD) : W1 m ρ c (Proc.devRef .tc main_arg16) = m ((c : Thread nD τ).loc main_arg16) :=
  (by keeps hostOps0 : W1 m ρ c (Proc.devRef .tc main_arg16) = W0 m ρ c (Proc.devRef .tc main_arg16)).trans rfl
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (by keeps hostOps1 : W3 m ρ c (Proc.devRef .tc main_arg16) = W2 m ρ c (Proc.devRef .tc main_arg16)).trans (W2_arg16 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W5_arg16 (c : Dev nD) : W5 m ρ c (Proc.devRef .tc main_arg16) = m ((c : Thread nD τ).loc main_arg16) :=
  (by keeps hostOps2 : W5 m ρ c (Proc.devRef .tc main_arg16) = W4 m ρ c (Proc.devRef .tc main_arg16)).trans (W4_arg16 m ρ c)
theorem W6_arg16 (c : Dev nD) : W6 m ρ c (Proc.devRef .tc main_arg16) = m ((c : Thread nD τ).loc main_arg16) :=
  (W6_of_ne m ρ c main_arg16 (by decide)).trans (W5_arg16 m ρ c)

/-! ## The normalisation arrays of the first stretch, carried to the later regions -/

/-- The two factors side by side are an input window of the first layer's region: it is read, never written back. -/
theorem W2_v15 (c : Dev nD) : W2 m ρ c (Proc.devRef .tc main_v15) = W1 m ρ c (Proc.devRef .tc main_v15) :=
  (W2_arr m ρ c 1).trans (((dat0 (V1 m ρ) c).arrAt_in 1 rfl cfg0.N).trans (A_eq0 (V1 m ρ) c 1))
theorem W3_v15 (c : Dev nD) : W3 m ρ c (Proc.devRef .tc main_v15) = W1 m ρ c (Proc.devRef .tc main_v15) :=
  (by keeps hostOps1 : W3 m ρ c (Proc.devRef .tc main_v15) = W2 m ρ c (Proc.devRef .tc main_v15)).trans (W2_v15 m ρ c)
theorem W2_v14 (c : Dev nD) : W2 m ρ c (Proc.devRef .tc main_v14) = W1 m ρ c (Proc.devRef .tc main_v14) :=
  (W2_of_ne m ρ c main_v14 (by decide)).trans rfl
theorem W3_v14 (c : Dev nD) : W3 m ρ c (Proc.devRef .tc main_v14) = W1 m ρ c (Proc.devRef .tc main_v14) :=
  (by keeps hostOps1 : W3 m ρ c (Proc.devRef .tc main_v14) = W2 m ρ c (Proc.devRef .tc main_v14)).trans (W2_v14 m ρ c)
theorem W4_v14 (c : Dev nD) : W4 m ρ c (Proc.devRef .tc main_v14) = W1 m ρ c (Proc.devRef .tc main_v14) :=
  (W4_of_ne m ρ c main_v14 (by decide)).trans (W3_v14 m ρ c)
theorem W5_v14 (c : Dev nD) : W5 m ρ c (Proc.devRef .tc main_v14) = W1 m ρ c (Proc.devRef .tc main_v14) :=
  (by keeps hostOps2 : W5 m ρ c (Proc.devRef .tc main_v14) = W4 m ρ c (Proc.devRef .tc main_v14)).trans (W4_v14 m ρ c)

end Cert.KernelIdeal.HostKeep

end
-- ==== Proof.Net.lean ====
/-
  The whole network as one function of its seventeen argument arrays.

  Both programs compute the degree factors, the edge indices, each layer's aggregation (gather the rows of the
  source nodes, add them into the rows of the destination nodes) and the per-graph sums and counts by the same host
  operations; those chains are named here once, as functions of the arrays they are applied to, and are never opened.
  Between them sit the layers' dense parts, taken in the specification's entry-by-entry form:
      c_out = rsqrt(max(deg_out, 1)),  c_in = rsqrt(max(deg_in, 1))        (N × 1 columns),
      h1 = dense(aggregate(x · c_out), [c_out | c_in], W1, b1),
      h2 = dense(aggregate(h1), [c_out | c_in], W2, b2),
      y  = denseLast(aggregate(h2), c_in, W3, b3),
      out = head(Σ_graph y, count_graph, feats_graph, Wl1[0:128], Wl1[128:131], bl1, Wl2, bl2, Wl3, bl3)  as a vector.
  The hidden layers' outputs already carry the factor c_out that the next aggregation needs.
-/
import proofs.«156721_j41420664602929_2_alg».proof.KernelIdeal
import proofs.«156721_j41420664602929_2_alg».proof.Proof.Gen.KernelIdeal
import proofs.«156721_j41420664602929_2_alg».proof.Proof.Spec

noncomputable section

namespace Cert.KernelIdeal.Net

open Cert.KernelIdeal Cert.KernelIdeal.Facts₀ Cert.KernelIdeal.Facts Idealize.ShloMosaic

/-- A node's degree along one end of the edges: ones added into the rows the indices name. -/
def degree (idx : IVec S600000 32) : FVec Ideal S50000 .f32 :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 idx)
    (broadcastInDim S600000 ![] bcast_S_S600000 (constant (F := Ideal) S_ .f32 0x3F800000#32))

/-- The normalisation factor of a degree, as an N × 1 column: rsqrt(max(degree, 1)). -/
def factor (idx : IVec S600000 32) : FVec Ideal S50000x1 .f32 :=
  broadcastInDim S50000x1 ![0] bcast_S50000_S50000x1_0
    (Host.rsqrt (F := Ideal) (maximumf (degree idx) (broadcastInDim S50000 ![] bcast_S_S50000 (constant (F := Ideal) S_ .f32 0x3F800000#32))))

/-- The two factors side by side: column 0 from the source ends, column 1 from the destination ends. -/
def factors (src dst : IVec S600000 32) : FVec Ideal S50000x2 .f32 :=
  concatenate S50000x2 1 [⟨S50000x1, factor src⟩, ⟨S50000x1, factor dst⟩] concatenates_S50000x1_S50000x1_S50000x2_d1

/-- The source indices as gather start indices: a negative index is taken from the end, then laid as a column. -/
def starts (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- Aggregation of 64-wide rows: gather the source rows, add them into the destination rows. -/
def aggregate64 (h : FVec Ideal S50000x64 .f32) (src dst : IVec S600000 32) : FVec Ideal S50000x64 .f32 :=
  Host.scatterAdd (F := Ideal) scatter_S50000x64_S600000x1_S600000x64_1_0_0_1
    (broadcastInDim S50000x64 ![] bcast_S_S50000x64 (constant (F := Ideal) S_ .f32 0x00000000#32))
    (broadcastInDim S600000x1 ![0] bcast_S600000_S600000x1_0 dst)
    (Host.gather gather_S50000x64_S600000x1_S600000x64_1_0_n_n_0_1_164 h (starts src))

/-- Aggregation of 128-wide rows. -/
def aggregate128 (h : FVec Ideal S50000x128 .f32) (src dst : IVec S600000 32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h (starts src))

/-- The per-graph sums of the node rows. -/
def graphSum (y : FVec Ideal S50000x128 .f32) (gid : IVec S50000 32) : FVec Ideal S2000x128 .f32 :=
  Host.scatterAdd (F := Ideal) scatter_S2000x128_S50000x1_S50000x128_1_0_0_1
    (broadcastInDim S2000x128 ![] bcast_S_S2000x128 (constant (F := Ideal) S_ .f32 0x00000000#32))
    (broadcastInDim S50000x1 ![0] bcast_S50000_S50000x1_0 gid) y

/-- The per-graph node counts, as a vector. -/
def graphCount (gid : IVec S50000 32) : FVec Ideal S2000 .f32 :=
  Host.scatterAdd (F := Ideal) scatter_S2000_S50000x1_S50000_n_0_0_1
    (broadcastInDim S2000 ![] bcast_S_S2000 (constant (F := Ideal) S_ .f32 0x00000000#32))
    (broadcastInDim S50000x1 ![0] bcast_S50000_S50000x1_0 gid)
    (broadcastInDim S50000 ![] bcast_S_S50000 (constant (F := Ideal) S_ .f32 0x3F800000#32))

/-- The first hidden layer's output (already multiplied by the out-degree factor). -/
def hidden1 (x : FVec Ideal S50000x64 .f32) (w : FVec Ideal S64x128 .f32) (b : FVec Ideal S128 .f32) (src dst : IVec S600000 32) :
    FVec Ideal S50000x128 .f32 :=
  Spec.dense (aggregate64 (mulf x (broadcastInDim S50000x64 ![0, 1] bcast_S50000x1_S50000x64_0_1 (factor src))) src dst)
    (factors src dst) w (shapeCast S1x128 b shapeCasts_S128_S1x128)

/-- A later hidden layer's output from the previous one's. -/
def hidden2 (h : FVec Ideal S50000x128 .f32) (w : FVec Ideal S128x128 .f32) (b : FVec Ideal S128 .f32) (src dst : IVec S600000 32) :
    FVec Ideal S50000x128 .f32 :=
  Spec.dense (aggregate128 h src dst) (factors src dst) w (shapeCast S1x128 b shapeCasts_S128_S1x128)

/-- The last graph-convolution layer's output. -/
def nodeOut (h : FVec Ideal S50000x128 .f32) (w : FVec Ideal S128x128 .f32) (b : FVec Ideal S128 .f32) (src dst : IVec S600000 32) :
    FVec Ideal S50000x128 .f32 :=
  Spec.denseLast (aggregate128 h src dst) (factor dst) w (shapeCast S1x128 b shapeCasts_S128_S1x128)

/-- The read-out head over the per-graph sums and counts, as a vector of 2000 outputs. -/
def readout (y : FVec Ideal S50000x128 .f32) (gid : IVec S50000 32) (fg : FVec Ideal S2000x3 .f32)
    (wl1 : FVec Ideal S131x256 .f32) (bl1 : FVec Ideal S256 .f32) (wl2 : FVec Ideal S256x256 .f32) (bl2 : FVec Ideal S256 .f32)
    (wl3 : FVec Ideal S256x1 .f32) (bl3 : FVec Ideal S1 .f32) : FVec Ideal S2000 .f32 :=
  shapeCast S2000
    (Spec.head (graphSum y gid) (broadcastInDim S2000x1 ![0] bcast_S2000_S2000x1_0 (graphCount gid)) fg
      (extractStridedSlice S128x256 ![0, 0] wl1 slices_S131x256_S128x256_0_0)
      (extractStridedSlice S3x256 ![128, 0] wl1 slices_S131x256_S3x256_128_0)
      (shapeCast S1x256 bl1 shapeCasts_S256_S1x256) wl2 (shapeCast S1x256 bl2 shapeCasts_S256_S1x256) wl3
      (shapeCast S1x1 bl3 shapeCasts_S1_S1x1))
    shapeCasts_S2000x1_S2000

/-- The network's result from its argument arrays. -/
def net (x : FVec Ideal S50000x64 .f32) (fg : FVec Ideal S2000x3 .f32) (w1 : FVec Ideal S64x128 .f32) (b1 : FVec Ideal S128 .f32)
    (w2 : FVec Ideal S128x128 .f32) (b2 : FVec Ideal S128 .f32) (w3 : FVec Ideal S128x128 .f32) (b3 : FVec Ideal S128 .f32)
    (wl1 : FVec Ideal S131x256 .f32) (bl1 : FVec Ideal S256 .f32) (wl2 : FVec Ideal S256x256 .f32) (bl2 : FVec Ideal S256 .f32)
    (wl3 : FVec Ideal S256x1 .f32) (bl3 : FVec Ideal S1 .f32) (src dst : IVec S600000 32) (gid : IVec S50000 32) :
    FVec Ideal S2000 .f32 :=
  readout (nodeOut (hidden2 (hidden1 x w1 b1 src dst) w2 b2 src dst) w3 b3 src dst) gid fg wl1 bl1 wl2 bl2 wl3 bl3

end Cert.KernelIdeal.Net

end
-- ==== Proof.Walk.lean ====
/-
  The idealized kernel program's buffers, boundary by boundary.

  Following the program from the launch memory: the first stretch of host operations computes the two degree
  factors, multiplies the node features by the out-degree factor and aggregates them along the edges; the first
  region turns the aggregate into the first hidden layer; the next stretch aggregates that, the next region makes
  the second hidden layer; again for the last layer; the fourth stretch sums the node outputs per graph, counts the
  nodes per graph and cuts the first read-out weight matrix in two; the last region is the read-out head and the last
  operation lays its 2000 × 1 output as a vector.  At every boundary each buffer that is read next is the named
  piece of the network, as a function of the argument arrays of the launch memory, and the result is the network.
-/
import proofs.«156721_j41420664602929_2_alg».proof.Proof.Gen.KernelIdeal.Frame
import proofs.«156721_j41420664602929_2_alg».proof.Proof.Region0
import proofs.«156721_j41420664602929_2_alg».proof.Proof.Region1
import proofs.«156721_j41420664602929_2_alg».proof.Proof.Region2
import proofs.«156721_j41420664602929_2_alg».proof.Proof.Region3
import proofs.«156721_j41420664602929_2_alg».proof.Proof.HostKeep
import proofs.«156721_j41420664602929_2_alg».proof.Proof.Net
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- An argument array of the launch memory on core c. -/
abbrev A (c : Dev nD) (r : Ref sig .tc) : Buf (Elt Ideal) ((c : Thread nD τ).loc r) := m ((c : Thread nD τ).loc r)

/-! ## After the first stretch -/

/-- The in-degree factor column. -/
theorem W1_v14 (c : Dev nD) : W1 m ρ c (Proc.devRef .tc main_v14) = Net.factor (A m c main_arg15) := by
  have e : W1 m ρ c (Proc.devRef .tc main_v14) = Net.factor (W0 m ρ c (Proc.devRef .tc main_arg15)) := by
    show StableHlo.after hostOps0 (W0 m ρ c) (Proc.devRef .tc main_v14) = _
    after_results_simp <;> rfl
  exact e

/-- The two factors side by side. -/
theorem W1_v15 (c : Dev nD) : W1 m ρ c (Proc.devRef .tc main_v15) = Net.factors (A m c main_arg14) (A m c main_arg15) := by
  have e : W1 m ρ c (Proc.devRef .tc main_v15) = Net.factors (W0 m ρ c (Proc.devRef .tc main_arg14)) (W0 m ρ c (Proc.devRef .tc main_arg15)) := by
    show StableHlo.after hostOps0 (W0 m ρ c) (Proc.devRef .tc main_v15) = _
    after_results_simp <;> rfl
  exact e

/-- The node features times the out-degree factor, aggregated along the edges. -/
theorem W1_v27 (c : Dev nD) : W1 m ρ c (Proc.devRef .tc main_v27) = Net.aggregate64 (mulf (A m c main_arg0) (broadcastInDim S50000x64 ![0, 1] Facts₀.bcast_S50000x1_S50000x64_0_1 (Net.factor (A m c main_arg14)))) (A m c main_arg14) (A m c main_arg15) := by
  have e : W1 m ρ c (Proc.devRef .tc main_v27) = Net.aggregate64 (mulf (W0 m ρ c (Proc.devRef .tc main_arg0)) (broadcastInDim S50000x64 ![0, 1] Facts₀.bcast_S50000x1_S50000x64_0_1 (Net.factor (W0 m ρ c (Proc.devRef .tc main_arg14))))) (W0 m ρ c (Proc.devRef .tc main_arg14)) (W0 m ρ c (Proc.devRef .tc main_arg15)) := by
    show StableHlo.after hostOps0 (W0 m ρ c) (Proc.devRef .tc main_v27) = _
    after_results_simp <;> rfl
  exact e

/-- The first bias as a row. -/
theorem W1_v28 (c : Dev nD) : W1 m ρ c (Proc.devRef .tc main_v28) = shapeCast S1x128 (A m c main_arg3) Facts₀.shapeCasts_S128_S1x128 := by
  have e : W1 m ρ c (Proc.devRef .tc main_v28) = shapeCast S1x128 (W0 m ρ c (Proc.devRef .tc main_arg3)) Facts₀.shapeCasts_S128_S1x128 := by
    show StableHlo.after hostOps0 (W0 m ρ c) (Proc.devRef .tc main_v28) = _
    after_results_simp <;> rfl
  exact e

/-! ## After the first region -/

/-- The first hidden layer. -/
theorem W2_v29 (c : Dev nD) : W2 m ρ c (Proc.devRef .tc main_v29) = (Net.hidden1 (A m c main_arg0) (A m c main_arg2) (A m c main_arg3) (A m c main_arg14) (A m c main_arg15)) := by
  refine (W2_arr m ρ c 4).trans ?_
  rw [Region0.final (V1 m ρ) c]
  show Spec.dense (W1 m ρ c (Proc.devRef .tc main_v27)) (W1 m ρ c (Proc.devRef .tc main_v15)) (W1 m ρ c (Proc.devRef .tc main_arg2)) (W1 m ρ c (Proc.devRef .tc main_v28)) = _
  rw [W1_v27 m ρ c, W1_v15 m ρ c, HostKeep.W1_arg2 m ρ c, W1_v28 m ρ c]
  rfl

/-! ## After the second stretch -/

/-- The first hidden layer aggregated along the edges. -/
theorem W3_v39 (c : Dev nD) : W3 m ρ c (Proc.devRef .tc main_v39) = Net.aggregate128 (Net.hidden1 (A m c main_arg0) (A m c main_arg2) (A m c main_arg3) (A m c main_arg14) (A m c main_arg15)) (A m c main_arg14) (A m c main_arg15) := by
  have e : W3 m ρ c (Proc.devRef .tc main_v39) = Net.aggregate128 (W2 m ρ c (Proc.devRef .tc main_v29)) (W2 m ρ c (Proc.devRef .tc main_arg14)) (W2 m ρ c (Proc.devRef .tc main_arg15)) := by
    show StableHlo.after hostOps1 (W2 m ρ c) (Proc.devRef .tc main_v39) = _
    after_results_simp <;> rfl
  rw [e, W2_v29 m ρ c, HostKeep.W2_arg14 m ρ c, HostKeep.W2_arg15 m ρ c]

/-- The second bias as a row. -/
theorem W3_v40 (c : Dev nD) : W3 m ρ c (Proc.devRef .tc main_v40) = shapeCast S1x128 (A m c main_arg5) Facts₀.shapeCasts_S128_S1x128 := by
  have e : W3 m ρ c (Proc.devRef .tc main_v40) = shapeCast S1x128 (W2 m ρ c (Proc.devRef .tc main_arg5)) Facts₀.shapeCasts_S128_S1x128 := by
    show StableHlo.after hostOps1 (W2 m ρ c) (Proc.devRef .tc main_v40) = _
    after_results_simp <;> rfl
  rw [e, HostKeep.W2_arg5 m ρ c]

/-! ## After the second region -/

/-- The second hidden layer. -/
theorem W4_v41 (c : Dev nD) : W4 m ρ c (Proc.devRef .tc main_v41) = (Net.hidden2 (Net.hidden1 (A m c main_arg0) (A m c main_arg2) (A m c main_arg3) (A m c main_arg14) (A m c main_arg15)) (A m c main_arg4) (A m c main_arg5) (A m c main_arg14) (A m c main_arg15)) := by
  refine (W4_arr m ρ c 4).trans ?_
  rw [Region1.final (V3 m ρ) c]
  show Spec.dense (W3 m ρ c (Proc.devRef .tc main_v39)) (W3 m ρ c (Proc.devRef .tc main_v15)) (W3 m ρ c (Proc.devRef .tc main_arg4)) (W3 m ρ c (Proc.devRef .tc main_v40)) = _
  rw [W3_v39 m ρ c, HostKeep.W3_v15 m ρ c, W1_v15 m ρ c, HostKeep.W3_arg4 m ρ c, W3_v40 m ρ c]
  rfl

/-! ## After the third stretch -/

/-- The second hidden layer aggregated along the edges. -/
theorem W5_v51 (c : Dev nD) : W5 m ρ c (Proc.devRef .tc main_v51) = Net.aggregate128 (Net.hidden2 (Net.hidden1 (A m c main_arg0) (A m c main_arg2) (A m c main_arg3) (A m c main_arg14) (A m c main_arg15)) (A m c main_arg4) (A m c main_arg5) (A m c main_arg14) (A m c main_arg15)) (A m c main_arg14) (A m c main_arg15) := by
  have e : W5 m ρ c (Proc.devRef .tc main_v51) = Net.aggregate128 (W4 m ρ c (Proc.devRef .tc main_v41)) (W4 m ρ c (Proc.devRef .tc main_arg14)) (W4 m ρ c (Proc.devRef .tc main_arg15)) := by
    show StableHlo.after hostOps2 (W4 m ρ c) (Proc.devRef .tc main_v51) = _
    after_results_simp <;> rfl
  rw [e, W4_v41 m ρ c, HostKeep.W4_arg14 m ρ c, HostKeep.W4_arg15 m ρ c]

/-- The third bias as a row. -/
theorem W5_v52 (c : Dev nD) : W5 m ρ c (Proc.devRef .tc main_v52) = shapeCast S1x128 (A m c main_arg7) Facts₀.shapeCasts_S128_S1x128 := by
  have e : W5 m ρ c (Proc.devRef .tc main_v52) = shapeCast S1x128 (W4 m ρ c (Proc.devRef .tc main_arg7)) Facts₀.shapeCasts_S128_S1x128 := by
    show StableHlo.after hostOps2 (W4 m ρ c) (Proc.devRef .tc main_v52) = _
    after_results_simp <;> rfl
  rw [e, HostKeep.W4_arg7 m ρ c]

/-! ## After the third region -/

/-- The last graph-convolution layer's node outputs. -/
theorem W6_v53 (c : Dev nD) : W6 m ρ c (Proc.devRef .tc main_v53) = (Net.nodeOut (Net.hidden2 (Net.hidden1 (A m c main_arg0) (A m c main_arg2) (A m c main_arg3) (A m c main_arg14) (A m c main_arg15)) (A m c main_arg4) (A m c main_arg5) (A m c main_arg14) (A m c main_arg15)) (A m c main_arg6) (A m c main_arg7) (A m c main_arg14) (A m c main_arg15)) := by
  refine (W6_arr m ρ c 4).trans ?_
  rw [Region2.final (V5 m ρ) c]
  show Spec.denseLast (W5 m ρ c (Proc.devRef .tc main_v51)) (W5 m ρ c (Proc.devRef .tc main_v14)) (W5 m ρ c (Proc.devRef .tc main_arg6)) (W5 m ρ c (Proc.devRef .tc main_v52)) = _
  rw [W5_v51 m ρ c, HostKeep.W5_v14 m ρ c, W1_v14 m ρ c, HostKeep.W5_arg6 m ρ c, W5_v52 m ρ c]
  rfl

/-! ## After the fourth stretch -/

/-- The per-graph sums of the node outputs. -/
theorem W7_v56 (c : Dev nD) : W7 m ρ c (Proc.devRef .tc main_v56) = Net.graphSum (Net.nodeOut (Net.hidden2 (Net.hidden1 (A m c main_arg0) (A m c main_arg2) (A m c main_arg3) (A m c main_arg14) (A m c main_arg15)) (A m c main_arg4) (A m c main_arg5) (A m c main_arg14) (A m c main_arg15)) (A m c main_arg6) (A m c main_arg7) (A m c main_arg14) (A m c main_arg15)) (A m c main_arg16) := by
  have e : W7 m ρ c (Proc.devRef .tc main_v56) = Net.graphSum (W6 m ρ c (Proc.devRef .tc main_v53)) (W6 m ρ c (Proc.devRef .tc main_arg16)) := by
    show StableHlo.after hostOps3 (W6 m ρ c) (Proc.devRef .tc main_v56) = _
    after_results_simp <;> rfl
  rw [e, W6_v53 m ρ c, HostKeep.W6_arg16 m ρ c]

/-- The per-graph node counts as a column. -/
theorem W7_v61 (c : Dev nD) : W7 m ρ c (Proc.devRef .tc main_v61) = broadcastInDim S2000x1 ![0] Facts₀.bcast_S2000_S2000x1_0 (Net.graphCount (A m c main_arg16)) := by
  have e : W7 m ρ c (Proc.devRef .tc main_v61) = broadcastInDim S2000x1 ![0] Facts₀.bcast_S2000_S2000x1_0 (Net.graphCount (W6 m ρ c (Proc.devRef .tc main_arg16))) := by
    show StableHlo.after hostOps3 (W6 m ρ c) (Proc.devRef .tc main_v61) = _
    after_results_simp <;> rfl
  rw [e, HostKeep.W6_arg16 m ρ c]

/-- The first 128 rows of the first read-out weight matrix. -/
theorem W7_v62 (c : Dev nD) : W7 m ρ c (Proc.devRef .tc main_v62) = extractStridedSlice S128x256 ![0, 0] (A m c main_arg8) Facts₀.slices_S131x256_S128x256_0_0 := by
  have e : W7 m ρ c (Proc.devRef .tc main_v62) = extractStridedSlice S128x256 ![0, 0] (W6 m ρ c (Proc.devRef .tc main_arg8)) Facts₀.slices_S131x256_S128x256_0_0 := by
    show StableHlo.after hostOps3 (W6 m ρ c) (Proc.devRef .tc main_v62) = _
    after_results_simp <;> rfl
  rw [e, HostKeep.W6_arg8 m ρ c]

/-- The last 3 rows of the first read-out weight matrix. -/
theorem W7_v63 (c : Dev nD) : W7 m ρ c (Proc.devRef .tc main_v63) = extractStridedSlice S3x256 ![128, 0] (A m c main_arg8) Facts₀.slices_S131x256_S3x256_128_0 := by
  have e : W7 m ρ c (Proc.devRef .tc main_v63) = extractStridedSlice S3x256 ![128, 0] (W6 m ρ c (Proc.devRef .tc main_arg8)) Facts₀.slices_S131x256_S3x256_128_0 := by
    show StableHlo.after hostOps3 (W6 m ρ c) (Proc.devRef .tc main_v63) = _
    after_results_simp <;> rfl
  rw [e, HostKeep.W6_arg8 m ρ c]

/-- The first read-out bias as a row. -/
theorem W7_v64 (c : Dev nD) : W7 m ρ c (Proc.devRef .tc main_v64) = shapeCast S1x256 (A m c main_arg9) Facts₀.shapeCasts_S256_S1x256 := by
  have e : W7 m ρ c (Proc.devRef .tc main_v64) = shapeCast S1x256 (W6 m ρ c (Proc.devRef .tc main_arg9)) Facts₀.shapeCasts_S256_S1x256 := by
    show StableHlo.after hostOps3 (W6 m ρ c) (Proc.devRef .tc main_v64) = _
    after_results_simp <;> rfl
  rw [e, HostKeep.W6_arg9 m ρ c]

/-- The second read-out bias as a row. -/
theorem W7_v65 (c : Dev nD) : W7 m ρ c (Proc.devRef .tc main_v65) = shapeCast S1x256 (A m c main_arg11) Facts₀.shapeCasts_S256_S1x256 := by
  have e : W7 m ρ c (Proc.devRef .tc main_v65) = shapeCast S1x256 (W6 m ρ c (Proc.devRef .tc main_arg11)) Facts₀.shapeCasts_S256_S1x256 := by
    show StableHlo.after hostOps3 (W6 m ρ c) (Proc.devRef .tc main_v65) = _
    after_results_simp <;> rfl
  rw [e, HostKeep.W6_arg11 m ρ c]

/-- The last read-out bias as a 1 × 1 array. -/
theorem W7_v66 (c : Dev nD) : W7 m ρ c (Proc.devRef .tc main_v66) = shapeCast S1x1 (A m c main_arg13) Facts₀.shapeCasts_S1_S1x1 := by
  have e : W7 m ρ c (Proc.devRef .tc main_v66) = shapeCast S1x1 (W6 m ρ c (Proc.devRef .tc main_arg13)) Facts₀.shapeCasts_S1_S1x1 := by
    show StableHlo.after hostOps3 (W6 m ρ c) (Proc.devRef .tc main_v66) = _
    after_results_simp <;> rfl
  rw [e, HostKeep.W6_arg13 m ρ c]

/-! ## After the last region, and the result -/

/-- The read-out head's 2000 × 1 output. -/
theorem W8_v67 (c : Dev nD) : W8 m ρ c (Proc.devRef .tc main_v67) =
    Spec.head (Net.graphSum (Net.nodeOut (Net.hidden2 (Net.hidden1 (A m c main_arg0) (A m c main_arg2) (A m c main_arg3) (A m c main_arg14) (A m c main_arg15)) (A m c main_arg4) (A m c main_arg5) (A m c main_arg14) (A m c main_arg15)) (A m c main_arg6) (A m c main_arg7) (A m c main_arg14) (A m c main_arg15)) (A m c main_arg16)) (broadcastInDim S2000x1 ![0] Facts₀.bcast_S2000_S2000x1_0 (Net.graphCount (A m c main_arg16))) (A m c main_arg1)
      (extractStridedSlice S128x256 ![0, 0] (A m c main_arg8) Facts₀.slices_S131x256_S128x256_0_0)
      (extractStridedSlice S3x256 ![128, 0] (A m c main_arg8) Facts₀.slices_S131x256_S3x256_128_0)
      (shapeCast S1x256 (A m c main_arg9) Facts₀.shapeCasts_S256_S1x256) (A m c main_arg10) (shapeCast S1x256 (A m c main_arg11) Facts₀.shapeCasts_S256_S1x256) (A m c main_arg12)
      (shapeCast S1x1 (A m c main_arg13) Facts₀.shapeCasts_S1_S1x1) := by
  refine (W8_arr m ρ c 10).trans ?_
  rw [Region3.final (V7 m ρ) c]
  show Spec.head (W7 m ρ c (Proc.devRef .tc main_v56)) (W7 m ρ c (Proc.devRef .tc main_v61)) (W7 m ρ c (Proc.devRef .tc main_arg1)) (W7 m ρ c (Proc.devRef .tc main_v62)) (W7 m ρ c (Proc.devRef .tc main_v63))
    (W7 m ρ c (Proc.devRef .tc main_v64)) (W7 m ρ c (Proc.devRef .tc main_arg10)) (W7 m ρ c (Proc.devRef .tc main_v65)) (W7 m ρ c (Proc.devRef .tc main_arg12)) (W7 m ρ c (Proc.devRef .tc main_v66)) = _
  rw [W7_v56 m ρ c, W7_v61 m ρ c, HostKeep.W7_arg1 m ρ c, W7_v62 m ρ c, W7_v63 m ρ c, W7_v64 m ρ c, HostKeep.W7_arg10 m ρ c,
    W7_v65 m ρ c, HostKeep.W7_arg12 m ρ c, W7_v66 m ρ c]

/-- The result buffer at the last boundary is the network of the argument arrays. -/
theorem W9_v68 (c : Dev nD) : W9 m ρ c (Proc.devRef .tc main_v68) =
    Net.net (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) := by
  have e : W9 m ρ c (Proc.devRef .tc main_v68) = shapeCast S2000 (W8 m ρ c (Proc.devRef .tc main_v67)) Facts₀.shapeCasts_S2000x1_S2000 := by
    show StableHlo.after hostOps4 (W8 m ρ c) (Proc.devRef .tc main_v68) = _
    after_results_simp <;> rfl
  rw [e, W8_v67 m ρ c]
  rfl

end Cert.KernelIdeal.Walk

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.RefLayers.lean ====
/-
  The reference's layers, read entry by entry.

  The reference computes each graph-convolution layer's dense part on the host: it multiplies the aggregated rows by
  the in-degree factor, takes the matrix product with the weights, adds the bias, and for the hidden layers clamps at
  zero; the multiplication by the out-degree factor that opens the next layer is taken together with the layer it
  follows.  At the ideal values the host's matrix product is the plain sum over the contracted axis, so each of
  these chains is the specification's `dense` / `denseLast` of the same arrays, with the two factors laid side by
  side and the bias laid as a row.

  Its read-out head divides the per-graph sums by max(count, 1), lays the means beside the three graph features,
  and multiplies the 131 columns by the whole first weight matrix.  The sum over the 131 columns is the sum over the
  first 128 (the means against the first 128 rows of the weights) plus the sum over the last 3 (the graph features
  against the last 3 rows): that is the one law used here, and it holds for any extended reals, since it only
  regroups a finite sum.  The remaining two layers are products, biases and a clamp, as in the specification.
-/
import proofs.«156721_j41420664602929_2_alg».proof.ReferenceIdeal
import proofs.«156721_j41420664602929_2_alg».proof.Proof.Gen.ReferenceIdeal
import proofs.«156721_j41420664602929_2_alg».proof.Proof.Spec
import proofs.«156721_j41420664602929_2_alg».proof.Proof.LibRowOps
import proofs.«156721_j41420664602929_2_alg».proof.Proof.LibBcast
import Idealize.ShloMosaic.Lib.ValueLayout
import Idealize.ShloMosaic.Lib.Pipeline.Value
import Idealize.ShloMosaic.PureOps.Ideal.Laws

noncomputable section

namespace Cert.ReferenceIdeal.RefLayers

open Cert.ReferenceIdeal Cert.ReferenceIdeal.Facts₀ Cert.ReferenceIdeal.Facts Idealize.ShloMosaic Idealize.ShloMosaic.ValueIdx

/-- The host's product of the 50000 × 64 rows by the 64 × 128 weights is the sum over 64 positions. -/
theorem dgA (l : FVec Ideal S50000x64 .f32) (r : FVec Ideal S64x128 .f32) (p : Fin 50000) (q : Fin 128) :
    Host.dotGeneral (F := Ideal) dot_S50000x64_S64x128_S50000x128_1_0_0_1_n_n none l r (ix2 p q) = ∑ k : Fin 64, l (ix2 p k) * r (ix2 k q) :=
  Cert.LibRowOps.dotGeneral_ix2 dot_S50000x64_S64x128_S50000x128_1_0_0_1_n_n rfl rfl rfl rfl
    (fun i c => by
      unfold DotDims.lhsIdx
      rw [dif_neg (show ¬(0 : Fin _) ∈ dot_S50000x64_S64x128_S50000x128_1_0_0_1_n_n.lhsBatch by decide),
        dif_pos (show (0 : Fin _) ∈ dot_S50000x64_S64x128_S50000x128_1_0_0_1_n_n.lhsNonContracting by decide)]
      rfl)
    (fun i c => by
      unfold DotDims.rhsIdx
      rw [dif_neg (show ¬(1 : Fin _) ∈ dot_S50000x64_S64x128_S50000x128_1_0_0_1_n_n.rhsBatch by decide),
        dif_pos (show (1 : Fin _) ∈ dot_S50000x64_S64x128_S50000x128_1_0_0_1_n_n.rhsNonContracting by decide)]
      rfl)
    none l r p q

/-- The host's product of the 50000 × 128 rows by the 128 × 128 weights is the sum over 128 positions. -/
theorem dgB (l : FVec Ideal S50000x128 .f32) (r : FVec Ideal S128x128 .f32) (p : Fin 50000) (q : Fin 128) :
    Host.dotGeneral (F := Ideal) dot_S50000x128_S128x128_S50000x128_1_0_0_1_n_n none l r (ix2 p q) = ∑ k : Fin 128, l (ix2 p k) * r (ix2 k q) :=
  Cert.LibRowOps.dotGeneral_ix2 dot_S50000x128_S128x128_S50000x128_1_0_0_1_n_n rfl rfl rfl rfl
    (fun i c => by
      unfold DotDims.lhsIdx
      rw [dif_neg (show ¬(0 : Fin _) ∈ dot_S50000x128_S128x128_S50000x128_1_0_0_1_n_n.lhsBatch by decide),
        dif_pos (show (0 : Fin _) ∈ dot_S50000x128_S128x128_S50000x128_1_0_0_1_n_n.lhsNonContracting by decide)]
      rfl)
    (fun i c => by
      unfold DotDims.rhsIdx
      rw [dif_neg (show ¬(1 : Fin _) ∈ dot_S50000x128_S128x128_S50000x128_1_0_0_1_n_n.rhsBatch by decide),
        dif_pos (show (1 : Fin _) ∈ dot_S50000x128_S128x128_S50000x128_1_0_0_1_n_n.rhsNonContracting by decide)]
      rfl)
    none l r p q

/-- The host's product of the 2000 × 131 read-out rows by the 131 × 256 weights is the sum over 131 positions. -/
theorem dgC (l : FVec Ideal S2000x131 .f32) (r : FVec Ideal S131x256 .f32) (p : Fin 2000) (q : Fin 256) :
    Host.dotGeneral (F := Ideal) dot_S2000x131_S131x256_S2000x256_1_0_0_1_n_n none l r (ix2 p q) = ∑ k : Fin 131, l (ix2 p k) * r (ix2 k q) :=
  Cert.LibRowOps.dotGeneral_ix2 dot_S2000x131_S131x256_S2000x256_1_0_0_1_n_n rfl rfl rfl rfl
    (fun i c => by
      unfold DotDims.lhsIdx
      rw [dif_neg (show ¬(0 : Fin _) ∈ dot_S2000x131_S131x256_S2000x256_1_0_0_1_n_n.lhsBatch by decide),
        dif_pos (show (0 : Fin _) ∈ dot_S2000x131_S131x256_S2000x256_1_0_0_1_n_n.lhsNonContracting by decide)]
      rfl)
    (fun i c => by
      unfold DotDims.rhsIdx
      rw [dif_neg (show ¬(1 : Fin _) ∈ dot_S2000x131_S131x256_S2000x256_1_0_0_1_n_n.rhsBatch by decide),
        dif_pos (show (1 : Fin _) ∈ dot_S2000x131_S131x256_S2000x256_1_0_0_1_n_n.rhsNonContracting by decide)]
      rfl)
    none l r p q

/-- The host's product of a 2000 × 256 hidden array by the 256 × 256 weights is the sum over 256 positions. -/
theorem dgD (l : FVec Ideal S2000x256 .f32) (r : FVec Ideal S256x256 .f32) (p : Fin 2000) (q : Fin 256) :
    Host.dotGeneral (F := Ideal) dot_S2000x256_S256x256_S2000x256_1_0_0_1_n_n none l r (ix2 p q) = ∑ k : Fin 256, l (ix2 p k) * r (ix2 k q) :=
  Cert.LibRowOps.dotGeneral_ix2 dot_S2000x256_S256x256_S2000x256_1_0_0_1_n_n rfl rfl rfl rfl
    (fun i c => by
      unfold DotDims.lhsIdx
      rw [dif_neg (show ¬(0 : Fin _) ∈ dot_S2000x256_S256x256_S2000x256_1_0_0_1_n_n.lhsBatch by decide),
        dif_pos (show (0 : Fin _) ∈ dot_S2000x256_S256x256_S2000x256_1_0_0_1_n_n.lhsNonContracting by decide)]
      rfl)
    (fun i c => by
      unfold DotDims.rhsIdx
      rw [dif_neg (show ¬(1 : Fin _) ∈ dot_S2000x256_S256x256_S2000x256_1_0_0_1_n_n.rhsBatch by decide),
        dif_pos (show (1 : Fin _) ∈ dot_S2000x256_S256x256_S2000x256_1_0_0_1_n_n.rhsNonContracting by decide)]
      rfl)
    none l r p q

/-- The host's product of a 2000 × 256 hidden array by the 256 × 1 weights is the sum over 256 positions. -/
theorem dgE (l : FVec Ideal S2000x256 .f32) (r : FVec Ideal S256x1 .f32) (p : Fin 2000) (q : Fin 1) :
    Host.dotGeneral (F := Ideal) dot_S2000x256_S256x1_S2000x1_1_0_0_1_n_n none l r (ix2 p q) = ∑ k : Fin 256, l (ix2 p k) * r (ix2 k q) :=
  Cert.LibRowOps.dotGeneral_ix2 dot_S2000x256_S256x1_S2000x1_1_0_0_1_n_n rfl rfl rfl rfl
    (fun i c => by
      unfold DotDims.lhsIdx
      rw [dif_neg (show ¬(0 : Fin _) ∈ dot_S2000x256_S256x1_S2000x1_1_0_0_1_n_n.lhsBatch by decide),
        dif_pos (show (0 : Fin _) ∈ dot_S2000x256_S256x1_S2000x1_1_0_0_1_n_n.lhsNonContracting by decide)]
      rfl)
    (fun i c => by
      unfold DotDims.rhsIdx
      rw [dif_neg (show ¬(1 : Fin _) ∈ dot_S2000x256_S256x1_S2000x1_1_0_0_1_n_n.rhsBatch by decide),
        dif_pos (show (1 : Fin _) ∈ dot_S2000x256_S256x1_S2000x1_1_0_0_1_n_n.rhsNonContracting by decide)]
      rfl)
    none l r p q

/-- The first hidden layer as the reference spells it, with the next layer's out-degree factor, is the specification's `dense`. -/
theorem hidden64 (agg : FVec Ideal S50000x64 .f32) (cin cout : FVec Ideal S50000x1 .f32) (w : FVec Ideal S64x128 .f32)
    (b : FVec Ideal S128 .f32)
    (hcat : Shape.Concatenates [(⟨2, ![50000, 1]⟩ : Shape), ⟨2, ![50000, 1]⟩] ⟨2, ![50000, 2]⟩ 1)
    (hsc : (⟨1, ![128]⟩ : Shape).ShapeCasts ⟨2, ![1, 128]⟩) :
    mulf (maximumf (addf (Host.dotGeneral (F := Ideal) dot_S50000x64_S64x128_S50000x128_1_0_0_1_n_n none
            (mulf agg (broadcastInDim S50000x64 ![0, 1] bcast_S50000x1_S50000x64_0_1 cin)) w)
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)))
      (broadcastInDim S50000x128 ![0, 1] bcast_S50000x1_S50000x128_0_1 cout)
    = Spec.dense agg (concatenate ⟨2, ![50000, 2]⟩ 1 [⟨⟨2, ![50000, 1]⟩, cout⟩, ⟨⟨2, ![50000, 1]⟩, cin⟩] hcat) w
        (shapeCast ⟨2, ![1, 128]⟩ b hsc) := by
  funext i
  obtain ⟨n, j, rfl⟩ : ∃ (n : Fin 50000) (j : Fin 128), i = ix2 n j := ⟨i 0, i 1, eq_ix2 i⟩
  show _ = Spec.denseAt agg _ w _ n j
  unfold Spec.denseAt
  rw [Cert.LibRowOps.concat2_apply_1 cout cin hcat n (1 : Fin 2) (0 : Fin 1) rfl,
    Cert.LibRowOps.concat2_apply_0 cout cin hcat n (0 : Fin 2) (0 : Fin 1) rfl, shapeCast_a_1a_apply]
  rw [mulf_apply, maximumf_apply, addf_apply, dgA, Cert.LibBcast.bcastRow_apply, Cert.LibBcast.bcastVecRow_apply,
    Cert.LibBcast.bcastScalar_apply, constant_apply, Cert.LibBcast.bcastCol_apply]
  have hs : (∑ k : Fin 64, mulf agg (broadcastInDim S50000x64 ![0, 1] bcast_S50000x1_S50000x64_0_1 cin) (ix2 n k) * w (ix2 k j))
      = ∑ k : Fin 64, agg (ix2 n k) * cin (ix2 n (0 : Fin 1)) * w (ix2 k j) :=
    Finset.sum_congr rfl fun k _ => by rw [mulf_apply, Cert.LibBcast.bcastCol_apply]
  rw [hs]

/-- A later hidden layer as the reference spells it, with the next layer's out-degree factor, is the specification's `dense`. -/
theorem hidden128 (agg : FVec Ideal S50000x128 .f32) (cin cout : FVec Ideal S50000x1 .f32) (w : FVec Ideal S128x128 .f32)
    (b : FVec Ideal S128 .f32)
    (hcat : Shape.Concatenates [(⟨2, ![50000, 1]⟩ : Shape), ⟨2, ![50000, 1]⟩] ⟨2, ![50000, 2]⟩ 1)
    (hsc : (⟨1, ![128]⟩ : Shape).ShapeCasts ⟨2, ![1, 128]⟩) :
    mulf (maximumf (addf (Host.dotGeneral (F := Ideal) dot_S50000x128_S128x128_S50000x128_1_0_0_1_n_n none
            (mulf agg (broadcastInDim S50000x128 ![0, 1] bcast_S50000x1_S50000x128_0_1 cin)) w)
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)))
      (broadcastInDim S50000x128 ![0, 1] bcast_S50000x1_S50000x128_0_1 cout)
    = Spec.dense agg (concatenate ⟨2, ![50000, 2]⟩ 1 [⟨⟨2, ![50000, 1]⟩, cout⟩, ⟨⟨2, ![50000, 1]⟩, cin⟩] hcat) w
        (shapeCast ⟨2, ![1, 128]⟩ b hsc) := by
  funext i
  obtain ⟨n, j, rfl⟩ : ∃ (n : Fin 50000) (j : Fin 128), i = ix2 n j := ⟨i 0, i 1, eq_ix2 i⟩
  show _ = Spec.denseAt agg _ w _ n j
  unfold Spec.denseAt
  rw [Cert.LibRowOps.concat2_apply_1 cout cin hcat n (1 : Fin 2) (0 : Fin 1) rfl,
    Cert.LibRowOps.concat2_apply_0 cout cin hcat n (0 : Fin 2) (0 : Fin 1) rfl, shapeCast_a_1a_apply]
  rw [mulf_apply, maximumf_apply, addf_apply, dgB, Cert.LibBcast.bcastRow_apply, Cert.LibBcast.bcastVecRow_apply,
    Cert.LibBcast.bcastScalar_apply, constant_apply, Cert.LibBcast.bcastCol_apply]
  have hs : (∑ k : Fin 128, mulf agg (broadcastInDim S50000x128 ![0, 1] bcast_S50000x1_S50000x128_0_1 cin) (ix2 n k) * w (ix2 k j))
      = ∑ k : Fin 128, agg (ix2 n k) * cin (ix2 n (0 : Fin 1)) * w (ix2 k j) :=
    Finset.sum_congr rfl fun k _ => by rw [mulf_apply, Cert.LibBcast.bcastCol_apply]
  rw [hs]

/-- The last graph-convolution layer as the reference spells it is the specification's `denseLast`. -/
theorem last128 (agg : FVec Ideal S50000x128 .f32) (cin : FVec Ideal S50000x1 .f32) (w : FVec Ideal S128x128 .f32)
    (b : FVec Ideal S128 .f32) (hsc : (⟨1, ![128]⟩ : Shape).ShapeCasts ⟨2, ![1, 128]⟩) :
    addf (Host.dotGeneral (F := Ideal) dot_S50000x128_S128x128_S50000x128_1_0_0_1_n_n none
          (mulf agg (broadcastInDim S50000x128 ![0, 1] bcast_S50000x1_S50000x128_0_1 cin)) w)
        (broadcastInDim S50000x128 ![0, 1] bcast_S1x128_S50000x128_0_1 (broadcastInDim S1x128 ![1] bcast_S128_S1x128_1 b))
    = Spec.denseLast agg cin w (shapeCast ⟨2, ![1, 128]⟩ b hsc) := by
  funext i
  obtain ⟨n, j, rfl⟩ : ∃ (n : Fin 50000) (j : Fin 128), i = ix2 n j := ⟨i 0, i 1, eq_ix2 i⟩
  show _ = Spec.denseLastAt agg cin w _ n j
  unfold Spec.denseLastAt
  rw [shapeCast_a_1a_apply, addf_apply, dgB, Cert.LibBcast.bcastRow_apply, Cert.LibBcast.bcastVecRow_apply]
  have hs : (∑ k : Fin 128, mulf agg (broadcastInDim S50000x128 ![0, 1] bcast_S50000x1_S50000x128_0_1 cin) (ix2 n k) * w (ix2 k j))
      = ∑ k : Fin 128, agg (ix2 n k) * cin (ix2 n (0 : Fin 1)) * w (ix2 k j) :=
    Finset.sum_congr rfl fun k _ => by rw [mulf_apply, Cert.LibBcast.bcastCol_apply]
  rw [hs]

end Cert.ReferenceIdeal.RefLayers

end
-- ==== Proof.RefHead.lean ====
/-
  The reference's read-out head, read entry by entry.

  The reference divides the per-graph sums by max(count, 1), lays the 128 means beside the 3 graph features and
  multiplies the 131 columns by the whole first weight matrix:
      Σ_{k<131} [mean | fg](g,k) · Wl1(k,j)  =  Σ_{k<128} mean(g,k) · Wl1(k,j)  +  Σ_{k<3} fg(g,k) · Wl1(128+k,j),
  a regrouping of a finite sum, valid for any extended reals.  With the bias and the clamp this is the
  specification's first hidden row over the two parts of the weight matrix; the second hidden row and the output
  are a product, a bias and (for the hidden row) a clamp each.
-/
import proofs.«156721_j41420664602929_2_alg».proof.Proof.RefLayers

noncomputable section

namespace Cert.ReferenceIdeal.RefHead

open Cert.ReferenceIdeal Cert.ReferenceIdeal.Facts₀ Cert.ReferenceIdeal.Facts Idealize.ShloMosaic Idealize.ShloMosaic.ValueIdx
open Cert.ReferenceIdeal.RefLayers

/-- The reference's first hidden row at graph g, column j. -/
theorem hidden1_apply (sy : FVec Ideal S2000x128 .f32) (cnt : FVec Ideal S2000 .f32) (fg : FVec Ideal S2000x3 .f32)
    (wl1 : FVec Ideal S131x256 .f32) (bl1 : FVec Ideal S256 .f32)
    (hs1 : (⟨2, ![131, 256]⟩ : Shape).Slices ![0, 0] ⟨2, ![128, 256]⟩) (hs2 : (⟨2, ![131, 256]⟩ : Shape).Slices ![128, 0] ⟨2, ![3, 256]⟩)
    (hc1 : (⟨1, ![256]⟩ : Shape).ShapeCasts ⟨2, ![1, 256]⟩) (hb : (⟨1, ![2000]⟩ : Shape).BroadcastsInDim ⟨2, ![2000, 1]⟩ ![0]) (g : Fin 2000) (j : Fin 256) :
    (maximumf (addf (Host.dotGeneral (F := Ideal) dot_S2000x131_S131x256_S2000x256_1_0_0_1_n_n none (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) wl1) (broadcastInDim S2000x256 ![0, 1] bcast_S1x256_S2000x256_0_1 (broadcastInDim S1x256 ![1] bcast_S256_S1x256_1 bl1))) (broadcastInDim S2000x256 ![] bcast_S_S2000x256 (constant (F := Ideal) S_ .f32 0x00000000#32))) (ix2 g j)
    = Spec.head1At sy (broadcastInDim ⟨2, ![2000, 1]⟩ ![0] hb cnt) fg (extractStridedSlice ⟨2, ![128, 256]⟩ ![0, 0] wl1 hs1)
        (extractStridedSlice ⟨2, ![3, 256]⟩ ![128, 0] wl1 hs2) (shapeCast ⟨2, ![1, 256]⟩ bl1 hc1) g j := by
  unfold Spec.head1At
  rw [maximumf_apply, addf_apply, dgC, Cert.LibBcast.bcastRow_apply, Cert.LibBcast.bcastVecRow_apply,
    Cert.LibBcast.bcastScalar_apply, constant_apply, shapeCast_a_1a_apply, Cert.LibBcast.bcastVecCol_apply]
  -- the 131 columns: the 128 means, then the 3 graph features
  have hsplit := Fin.sum_univ_add (fun k : Fin (128 + 3) =>
    (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) (ix2 g k) * wl1 (ix2 k j))
  have h128 : ∀ k : Fin 128,
      (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) (ix2 g (Fin.castAdd 3 k)) * wl1 (ix2 (Fin.castAdd 3 k) j)
      = Ideal.div (sy (ix2 g k)) (max (cnt (ix1 g)) Spec.w1) * extractStridedSlice ⟨2, ![128, 256]⟩ ![0, 0] wl1 hs1 (ix2 k j) := fun k => by
    rw [Cert.LibRowOps.concat2_apply_0 _ fg concatenates_S2000x128_S2000x3_S2000x131_d1 g (Fin.castAdd 3 k) k rfl,
      slice2_axis0_apply 0 wl1 hs1 k j (Fin.castAdd 3 k) (Nat.zero_add _).symm]
    show Ideal.div (sy (ix2 g k)) _ * _ = _
    rw [Cert.LibBcast.bcastCol_apply, Cert.LibBcast.bcastVecCol_apply, maximumf_apply, Cert.LibBcast.bcastScalar_apply, constant_apply]
  have h3 : ∀ k : Fin 3,
      (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) (ix2 g (Fin.natAdd 128 k)) * wl1 (ix2 (Fin.natAdd 128 k) j)
      = fg (ix2 g k) * extractStridedSlice ⟨2, ![3, 256]⟩ ![128, 0] wl1 hs2 (ix2 k j) := fun k => by
    rw [Cert.LibRowOps.concat2_apply_1 _ fg concatenates_S2000x128_S2000x3_S2000x131_d1 g (Fin.natAdd 128 k) k rfl,
      slice2_axis0_apply 128 wl1 hs2 k j (Fin.natAdd 128 k) rfl]
  rw [show (∑ k : Fin 131, (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) (ix2 g k) * wl1 (ix2 k j))
      = (∑ k : Fin 128, Ideal.div (sy (ix2 g k)) (max (cnt (ix1 g)) Spec.w1) * extractStridedSlice ⟨2, ![128, 256]⟩ ![0, 0] wl1 hs1 (ix2 k j))
        + ∑ k : Fin 3, fg (ix2 g k) * extractStridedSlice ⟨2, ![3, 256]⟩ ![128, 0] wl1 hs2 (ix2 k j) from
    hsplit.trans (congrArg₂ (· + ·) (Finset.sum_congr rfl fun k _ => h128 k) (Finset.sum_congr rfl fun k _ => h3 k))]

/-- The reference's second hidden row at graph g, column j, over any first hidden array. -/
theorem hidden2_apply (h : FVec Ideal S2000x256 .f32) (wl2 : FVec Ideal S256x256 .f32) (bl2 : FVec Ideal S256 .f32)
    (hc2 : (⟨1, ![256]⟩ : Shape).ShapeCasts ⟨2, ![1, 256]⟩) (g : Fin 2000) (j : Fin 256) :
    (maximumf (addf (Host.dotGeneral (F := Ideal) dot_S2000x256_S256x256_S2000x256_1_0_0_1_n_n none h wl2) (broadcastInDim S2000x256 ![0, 1] bcast_S1x256_S2000x256_0_1 (broadcastInDim S1x256 ![1] bcast_S256_S1x256_1 bl2))) (broadcastInDim S2000x256 ![] bcast_S_S2000x256 (constant (F := Ideal) S_ .f32 0x00000000#32))) (ix2 g j)
    = Spec.head2At (fun g k => h (ix2 g k)) wl2 (shapeCast ⟨2, ![1, 256]⟩ bl2 hc2) g j := by
  unfold Spec.head2At
  rw [maximumf_apply, addf_apply, dgD, Cert.LibBcast.bcastRow_apply, Cert.LibBcast.bcastVecRow_apply,
    Cert.LibBcast.bcastScalar_apply, constant_apply, shapeCast_a_1a_apply]

/-- The reference's output at graph g, over any second hidden array. -/
theorem out_apply (h : FVec Ideal S2000x256 .f32) (wl3 : FVec Ideal S256x1 .f32) (bl3 : FVec Ideal S1 .f32)
    (hc3 : (⟨1, ![1]⟩ : Shape).ShapeCasts ⟨2, ![1, 1]⟩) (g : Fin 2000) :
    (addf (Host.dotGeneral (F := Ideal) dot_S2000x256_S256x1_S2000x1_1_0_0_1_n_n none h wl3) (broadcastInDim S2000x1 ![0, 1] bcast_S1x1_S2000x1_0_1 (broadcastInDim S1x1 ![1] bcast_S1_S1x1_1 bl3))) (ix2 g (0 : Fin 1))
    = Spec.head3At (fun g k => h (ix2 g k)) wl3 (shapeCast ⟨2, ![1, 1]⟩ bl3 hc3) g := by
  unfold Spec.head3At
  rw [addf_apply, dgE, Cert.LibBcast.bcastRow_apply, Cert.LibBcast.bcastVecRow_apply, shapeCast_a_1a_apply]

/-- The reference's whole read-out head is the specification's. -/
theorem head_eq (sy : FVec Ideal S2000x128 .f32) (cnt : FVec Ideal S2000 .f32) (fg : FVec Ideal S2000x3 .f32)
    (wl1 : FVec Ideal S131x256 .f32) (bl1 : FVec Ideal S256 .f32)
    (wl2 : FVec Ideal S256x256 .f32) (bl2 : FVec Ideal S256 .f32) (wl3 : FVec Ideal S256x1 .f32) (bl3 : FVec Ideal S1 .f32)
    (hs1 : (⟨2, ![131, 256]⟩ : Shape).Slices ![0, 0] ⟨2, ![128, 256]⟩) (hs2 : (⟨2, ![131, 256]⟩ : Shape).Slices ![128, 0] ⟨2, ![3, 256]⟩)
    (hc1 : (⟨1, ![256]⟩ : Shape).ShapeCasts ⟨2, ![1, 256]⟩) (hb : (⟨1, ![2000]⟩ : Shape).BroadcastsInDim ⟨2, ![2000, 1]⟩ ![0])
    (hc2 : (⟨1, ![256]⟩ : Shape).ShapeCasts ⟨2, ![1, 256]⟩) (hc3 : (⟨1, ![1]⟩ : Shape).ShapeCasts ⟨2, ![1, 1]⟩) :
    (addf (Host.dotGeneral (F := Ideal) dot_S2000x256_S256x1_S2000x1_1_0_0_1_n_n none (maximumf (addf (Host.dotGeneral (F := Ideal) dot_S2000x256_S256x256_S2000x256_1_0_0_1_n_n none (maximumf (addf (Host.dotGeneral (F := Ideal) dot_S2000x131_S131x256_S2000x256_1_0_0_1_n_n none (concatenate S2000x131 1 [⟨S2000x128, (Host.divf (F := Ideal) sy (broadcastInDim S2000x128 ![0, 1] bcast_S2000x1_S2000x128_0_1 (broadcastInDim S2000x1 ![0] bcast_S2000_S2000x1_0 (maximumf cnt (broadcastInDim S2000 ![] bcast_S_S2000 (constant (F := Ideal) S_ .f32 0x3F800000#32))))))⟩, ⟨S2000x3, fg⟩] concatenates_S2000x128_S2000x3_S2000x131_d1) wl1) (broadcastInDim S2000x256 ![0, 1] bcast_S1x256_S2000x256_0_1 (broadcastInDim S1x256 ![1] bcast_S256_S1x256_1 bl1))) (broadcastInDim S2000x256 ![] bcast_S_S2000x256 (constant (F := Ideal) S_ .f32 0x00000000#32))) wl2) (broadcastInDim S2000x256 ![0, 1] bcast_S1x256_S2000x256_0_1 (broadcastInDim S1x256 ![1] bcast_S256_S1x256_1 bl2))) (broadcastInDim S2000x256 ![] bcast_S_S2000x256 (constant (F := Ideal) S_ .f32 0x00000000#32))) wl3) (broadcastInDim S2000x1 ![0, 1] bcast_S1x1_S2000x1_0_1 (broadcastInDim S1x1 ![1] bcast_S1_S1x1_1 bl3)))
    = Spec.head sy (broadcastInDim ⟨2, ![2000, 1]⟩ ![0] hb cnt) fg (extractStridedSlice ⟨2, ![128, 256]⟩ ![0, 0] wl1 hs1)
        (extractStridedSlice ⟨2, ![3, 256]⟩ ![128, 0] wl1 hs2) (shapeCast ⟨2, ![1, 256]⟩ bl1 hc1) wl2
        (shapeCast ⟨2, ![1, 256]⟩ bl2 hc2) wl3 (shapeCast ⟨2, ![1, 1]⟩ bl3 hc3) := by
  funext i
  obtain ⟨g, u, rfl⟩ : ∃ (g : Fin 2000) (u : Fin 1), i = ix2 g u := ⟨i 0, i 1, eq_ix2 i⟩
  obtain rfl : u = 0 := Subsingleton.elim _ _
  refine (out_apply _ wl3 bl3 hc3 g).trans ?_
  show _ = Spec.head3At (Spec.head2At (Spec.head1At sy (broadcastInDim ⟨2, ![2000, 1]⟩ ![0] hb cnt) fg (extractStridedSlice ⟨2, ![128, 256]⟩ ![0, 0] wl1 hs1)
        (extractStridedSlice ⟨2, ![3, 256]⟩ ![128, 0] wl1 hs2) (shapeCast ⟨2, ![1, 256]⟩ bl1 hc1)) wl2 (shapeCast ⟨2, ![1, 256]⟩ bl2 hc2)) wl3 (shapeCast ⟨2, ![1, 1]⟩ bl3 hc3) g
  refine congrArg (fun hh => Spec.head3At hh wl3 (shapeCast ⟨2, ![1, 1]⟩ bl3 hc3) g) ?_
  funext g' k'
  refine (hidden2_apply _ wl2 bl2 hc2 g' k').trans ?_
  refine congrArg (fun hh => Spec.head2At hh wl2 (shapeCast ⟨2, ![1, 256]⟩ bl2 hc2) g' k') ?_
  funext g'' k''
  exact hidden1_apply sy cnt fg wl1 bl1 hs1 hs2 hc1 hb g'' k''

end Cert.ReferenceIdeal.RefHead

end
-- ==== Proof.RefNet.lean ====
/-
  The reference's result is the network of its argument arrays.

  The reference's run ends with its result at one composed term of the launch memory's argument arrays.  In that term
  each graph-convolution layer's dense chain is the specification's `dense` / `denseLast` and the read-out chain is
  the specification's `head` (the two modules before this one); what remains around them — the degree factors, the
  edge indices, the gathers and scatter-adds, the per-graph sums and counts — is spelt by the same host operations
  as in the kernel's program, with the same dimension records, and is left as it stands.
-/
import proofs.«156721_j41420664602929_2_alg».proof.Proof.Gen.ReferenceIdeal.Run
import proofs.«156721_j41420664602929_2_alg».proof.Proof.RefLayers
import proofs.«156721_j41420664602929_2_alg».proof.Proof.RefHead
import proofs.«156721_j41420664602929_2_alg».proof.Proof.Net

set_option maxRecDepth 16384

noncomputable section

namespace Cert.ReferenceIdeal.RefNet

open Cert.ReferenceIdeal Cert.ReferenceIdeal.Gen Idealize.ShloMosaic Idealize.ShloMosaic.TcCoe Idealize.SL.Sem

/-- The reference run's result term is the network function of the launch memory's argument arrays. -/
theorem result_eq (m : (ℓ : Loc nD τ sig) → Buf (Elt Ideal) ℓ) (c : Dev nD) :
    Cert.ReferenceIdeal.Value.res_main_v98 (F := Ideal) m c
      = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v98
  rw [Cert.ReferenceIdeal.RefHead.head_eq _ _ _ _ _ _ _ _ _
    Cert.KernelIdeal.Facts₀.slices_S131x256_S128x256_0_0 Cert.KernelIdeal.Facts₀.slices_S131x256_S3x256_128_0
    Cert.KernelIdeal.Facts₀.shapeCasts_S256_S1x256 Cert.KernelIdeal.Facts₀.bcast_S2000_S2000x1_0
    Cert.KernelIdeal.Facts₀.shapeCasts_S256_S1x256 Cert.KernelIdeal.Facts₀.shapeCasts_S1_S1x1]
  rw [Cert.ReferenceIdeal.RefLayers.last128 _ _ _ _ Cert.KernelIdeal.Facts₀.shapeCasts_S128_S1x128]
  rw [Cert.ReferenceIdeal.RefLayers.hidden128 _ _ _ _ _ Cert.KernelIdeal.Facts₀.concatenates_S50000x1_S50000x1_S50000x2_d1
    Cert.KernelIdeal.Facts₀.shapeCasts_S128_S1x128]
  rw [Cert.ReferenceIdeal.RefLayers.hidden64 _ _ _ _ _ Cert.KernelIdeal.Facts₀.concatenates_S50000x1_S50000x1_S50000x2_d1
    Cert.KernelIdeal.Facts₀.shapeCasts_S128_S1x128]
  rfl

end Cert.ReferenceIdeal.RefNet

end
-- ==== Proof.lean ====
/-
  The certificate: a three-layer graph convolution with a mean read-out and a three-layer head, as Pallas kernels
  for the dense parts, against the same network written with plain array operations.

  Both programs compute the degree factors, gather node rows along the edges and add them into the destination rows
  by the same host operations.  The kernel program runs each layer's dense part — scale by the in-degree factor,
  multiply by the weights, add the bias, clamp, scale by the out-degree factor for the next layer — as a kernel over
  blocks of 5000 rows, and the read-out head as one kernel that multiplies the means and the graph features by the
  two parts of the first weight matrix separately.  At the ideal values (exact extended reals, roundings to bf16
  the identity) each kernel region leaves in its output the specification's entry-by-entry function of its inputs,
  and each of the reference's host chains is the same function; the split product of the head is a regrouping of a
  finite sum.  No step needs the inputs to be finite.

  The three frames are the generated ones (the reference's is its generated run with the result dropped); the
  idealization rewrote nothing, so `preserves` is `True`; the algebraic claim is the two runs read to one function
  of the argument arrays.
-/
import proofs.«156721_j41420664602929_2_alg».proof.Defs
import proofs.«156721_j41420664602929_2_alg».proof.Proof.Gen.Kernel
import proofs.«156721_j41420664602929_2_alg».proof.Proof.Gen.Kernel.Skeleton
import proofs.«156721_j41420664602929_2_alg».proof.Proof.Gen.Kernel.Launch
import proofs.«156721_j41420664602929_2_alg».proof.Proof.Gen.Kernel.Points
import proofs.«156721_j41420664602929_2_alg».proof.Proof.Gen.Kernel.Frame
import proofs.«156721_j41420664602929_2_alg».proof.Proof.Gen.KernelIdeal
import proofs.«156721_j41420664602929_2_alg».proof.Proof.Gen.KernelIdeal.Skeleton
import proofs.«156721_j41420664602929_2_alg».proof.Proof.Gen.KernelIdeal.Launch
import proofs.«156721_j41420664602929_2_alg».proof.Proof.Gen.KernelIdeal.Points
import proofs.«156721_j41420664602929_2_alg».proof.Proof.Gen.KernelIdeal.Frame
import proofs.«156721_j41420664602929_2_alg».proof.Proof.Gen.ReferenceIdeal
import proofs.«156721_j41420664602929_2_alg».proof.Proof.Gen.ReferenceIdeal.Run
import proofs.«156721_j41420664602929_2_alg».proof.Proof.Gen.Pre_finite_inputs
import proofs.«156721_j41420664602929_2_alg».proof.Proof.KernelRun
import proofs.«156721_j41420664602929_2_alg».proof.Proof.Walk
import proofs.«156721_j41420664602929_2_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network function of the kernel
    program's argument arrays in their result, and their arguments unchanged. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Walk.W9_v68 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.RefNet.result_eq m' c, h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
